-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1250000 32) (main_arg2 : IVec S1250000 32) (main_arg3 : FVec F S192x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S192x64 .f32 := Host.absf main_arg3
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S5000x64 : Shape := ⟨2, ![5000, 64]⟩
abbrev S5000x1 : Shape := ⟨2, ![5000, 1]⟩
abbrev S1250000x64 : Shape := ⟨2, ![1250000, 64]⟩
abbrev S1x64 : Shape := ⟨2, ![1, 64]⟩
abbrev S64x64 : Shape := ⟨2, ![64, 64]⟩

abbrev nBuf : Space → Nat
  | .hbm => 52
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S192x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .f32⟩
  | .hbm, ⟨29, _⟩ => ⟨S_, .f32⟩
  | .hbm, ⟨30, _⟩ => ⟨S100000x64, .f32⟩
  | .hbm, ⟨31, _⟩ => ⟨S1250000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S_, .f32⟩
  | .hbm, ⟨45, _⟩ => ⟨S100000x64, .f32⟩
  | .hbm, ⟨46, _⟩ => ⟨S1250000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S192x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  shapeCasts_S64_S1x64 : S64.ShapeCasts S1x64
  inb_S192x64_S64x64_0_0 : ∀ a, (![0, 0] : Fin 2 → Nat) a + S64x64.size a ≤ S192x64.size a
  h_S64x64 : 0 < S64x64.numel
  inb_S192x64_S64x64_64_0 : ∀ a, (![64, 0] : Fin 2 → Nat) a + S64x64.size a ≤ S192x64.size a
  inb_S192x64_S64x64_128_0 : ∀ a, (![128, 0] : Fin 2 → Nat) a + S64x64.size a ≤ S192x64.size a
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x64.size a ≤ S192x64.size a
  hwx3_3 : ∀ i : grid3.Coords, EltTy.bits .f32 = 32 ∨ (Rect.block (s := S192x64) S192x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19_0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30_0) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S1250000 : Shape := ⟨1, ![1250000]⟩
abbrev S192x64 : Shape := ⟨2, ![192, 64]⟩
abbrev S64 : Shape := ⟨1, ![64]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S100000x192 : Shape := ⟨2, ![100000, 192]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S192x64, .f32⟩
  | .hbm, ⟨4, _⟩ => ⟨S64, .f32⟩
  | .hbm, ⟨5, _⟩ => ⟨S_, .f32⟩
  | .hbm, ⟨6, _⟩ => ⟨S1250000, .f32⟩
  | .hbm, ⟨7, _⟩ => ⟨S_, .f32⟩
  | .hbm, ⟨8, _⟩ => ⟨S100000, .f32⟩
  | .hbm, ⟨9, _⟩ => ⟨S1250000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x192, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x192_S192x64_S100000x64_1_0_0_1_n_n_wf : DotDims.WF S100000x192 S192x64 S100000x64 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.KBody0.lean ====
/-
  Region 0 of the program, the row scaling: one grid point of the kernel run on whole staging buffers, and the
  pipeline's proof data at an arbitrary entry valuation `V`.

  At a grid point every input window's staging buffer holds the window's block of its array, and the body leaves
  in every output window's staging buffer the value it stores there: a pure function of the input blocks
  (`out0_w`). The body obligation of the pipeline follows at every point.
-/
import proofs.«164281_j49383533969583_2_alg».proof.Proof.Gen.Kernel.Launch
import proofs.«164281_j49383533969583_2_alg».proof.Proof.Gen.Kernel.Skeleton
import proofs.«164281_j49383533969583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles and what it stores -/

abbrev rA0 : Rect S5000x64 := Rect.unit (s := S5000x64) ![0, 0] S5000x64.size inb_S5000x64_S5000x64_0_0
abbrev rD0 : Rect S5000x1 := Rect.unit (s := S5000x1) ![0, 0] S5000x1.size inb_S5000x1_S5000x1_0_0

/-- What the body leaves in output window 2's staging buffer, from the input blocks. -/
def out0_2 (x0 : Vec F S5000x64 .f32) (x1 : Vec F S5000x1 .f32) : Vec F S5000x64 .f32 :=
  View.canon [⟨rA0, k0_pay1 (View.ld x0 rA0) (View.ld x1 rD0)⟩]

/-- The one store covers the buffer. -/
theorem cover0_2 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y

/-! ## The body's triple -/

set_option maxHeartbeats 4000000 in
/-- The kernel body on whole staging memrefs, the inputs' at contents `x_j` and the outputs' at anything, runs to the
    continuation with the inputs' as they were and each output's at `out0_w` of the inputs. -/
theorem sound_kernel0 (c : Dev nD) (E : Set ℕ) (i : grid0.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole)
    (x0 : Vec F S5000x64 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and each output's at `out0_w` of the input blocks; the invariant holds the scoped rest
    and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBody2.lean ====
/-
  Region 2 of the program, the second recursion step: one grid point of the kernel run on whole staging buffers, and the
  pipeline's proof data at an arbitrary entry valuation `V`.

  At a grid point every input window's staging buffer holds the window's block of its array, and the body leaves
  in every output window's staging buffer the value it stores there: a pure function of the input blocks
  (`out2_w`). The body obligation of the pipeline follows at every point.
-/
import proofs.«164281_j49383533969583_2_alg».proof.Proof.Gen.Kernel.Launch
import proofs.«164281_j49383533969583_2_alg».proof.Proof.Gen.Kernel.Skeleton
import proofs.«164281_j49383533969583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles and what it stores -/

abbrev rA2 : Rect S5000x64 := Rect.unit (s := S5000x64) ![0, 0] S5000x64.size inb_S5000x64_S5000x64_0_0
abbrev rD2 : Rect S5000x1 := Rect.unit (s := S5000x1) ![0, 0] S5000x1.size inb_S5000x1_S5000x1_0_0

/-- What the body leaves in output window 4's staging buffer, from the input blocks. -/
def out2_4 (x0 : Vec F S5000x64 .f32) (x1 : Vec F S5000x1 .f32) (x2 : Vec F S5000x64 .f32) (x3 : Vec F S5000x64 .f32) : Vec F S5000x64 .f32 :=
  View.canon [⟨rA2, k2_pay2 (View.ld x1 rD2) (View.ld x0 rA2) (View.ld x2 rA2) (View.ld x3 rA2)⟩]

/-- The one store covers the buffer. -/
theorem cover2_4 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y

/-- What the body leaves in output window 5's staging buffer, from the input blocks. -/
def out2_5 (x0 : Vec F S5000x64 .f32) (x1 : Vec F S5000x1 .f32) (x2 : Vec F S5000x64 .f32) (x3 : Vec F S5000x64 .f32) : Vec F S5000x64 .f32 :=
  View.canon [⟨rA2, k2_pay3 (View.ld x1 rD2) (View.ld x0 rA2) (View.ld x2 rA2) (View.ld x3 rA2)⟩]

/-- The one store covers the buffer. -/
theorem cover2_5 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y

/-! ## The body's triple -/

set_option maxHeartbeats 4000000 in
/-- The kernel body on whole staging memrefs, the inputs' at contents `x_j` and the outputs' at anything, runs to the
    continuation with the inputs' as they were and each output's at `out2_w` of the inputs. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole)
    (x0 : Vec F S5000x64 .f32) (x1 : Vec F S5000x1 .f32) (x2 : Vec F S5000x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__cheb_kernel i arg1 harg1 arg2 harg2 arg3 harg3 arg4 harg4 arg5 harg5 arg6 harg6) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at `out2_w` of the input blocks; the invariant holds the scoped rest
    and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KBody3.lean ====
/-
  Region 3 of the program, the three products, the bias and the clamp: one grid point of the kernel run on whole staging buffers, and the
  pipeline's proof data at an arbitrary entry valuation `V`.

  At a grid point every input window's staging buffer holds the window's block of its array, and the body leaves
  in every output window's staging buffer the value it stores there: a pure function of the input blocks
  (`out3_w`). The body obligation of the pipeline follows at every point.
-/
import proofs.«164281_j49383533969583_2_alg».proof.Proof.Gen.Kernel.Launch
import proofs.«164281_j49383533969583_2_alg».proof.Proof.Gen.Kernel.Skeleton
import proofs.«164281_j49383533969583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's rectangles and what it stores -/

abbrev rA3 : Rect S5000x64 := Rect.unit (s := S5000x64) ![0, 0] S5000x64.size inb_S5000x64_S5000x64_0_0
abbrev rW0 : Rect S192x64 := Rect.unit (s := S192x64) ![0, 0] S64x64.size inb_S192x64_S64x64_0_0
abbrev rW1 : Rect S192x64 := Rect.unit (s := S192x64) ![64, 0] S64x64.size inb_S192x64_S64x64_64_0
abbrev rW2 : Rect S192x64 := Rect.unit (s := S192x64) ![128, 0] S64x64.size inb_S192x64_S64x64_128_0
abbrev rB : Rect S1x64 := Rect.unit (s := S1x64) ![0, 0] S1x64.size inb_S1x64_S1x64_0_0

/-- What the body leaves in output window 5's staging buffer, from the input blocks. -/
def out3_5 (x0 : Vec F S5000x64 .f32) (x1 : Vec F S5000x64 .f32) (x2 : Vec F S5000x64 .f32) (x3 : Vec F S192x64 .f32) (x4 : Vec F S1x64 .f32) : Vec F S5000x64 .f32 :=
  View.canon [⟨rA3, k3_pay1 (View.ld x3 rW0) (View.ld x3 rW1) (View.ld x3 rW2) (View.ld x0 rA3) (View.ld x1 rA3) (View.ld x2 rA3) (View.ld x4 rB)⟩]

/-- The one store covers the buffer. -/
theorem cover3_5 (p0 : Vec F S5000x64 .f32) (y : S5000x64.Idx) :
    ∃ pc ∈ ([⟨rA3, p0⟩] : List (View.Piece (Elt F) S5000x64 .f32)), y ∈ pc.1.set :=
  View.cover_of_tiled [⟨rA3, p0⟩] S5000x64.size (by rfl) y

/-! ## The body's triple -/

set_option maxHeartbeats 4000000 in
/-- The kernel body on whole staging memrefs, the inputs' at contents `x_j` and the outputs' at anything, runs to the
    continuation with the inputs' as they were and each output's at `out3_w` of the inputs. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S192x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S5000x64 .f32) (x3 : Vec F S192x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__matmul_relu_kernel i arg1 harg1 arg2 harg2 arg3 harg3 arg4 harg4 arg5 harg5 arg6 harg6) K := by
  simp only [cc3__matmul_relu_kernel_eq_skeleton]; unfold cc3__matmul_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and each output's at `out3_w` of the input blocks; the invariant holds the scoped rest
    and the generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 4000000 in
/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KBody1.lean ====
/-
  Region 1 of the program, the first recursion step: one grid point of the kernel run on whole staging buffers, and the
  pipeline's proof data at an arbitrary entry valuation `V`.

  At a grid point every input window's staging buffer holds the window's block of its array, and the body leaves
  in every output window's staging buffer the value it stores there: a pure function of the input blocks
  (`out1_w`). The body obligation of the pipeline follows at every point.
-/
import proofs.«164281_j49383533969583_2_alg».proof.Proof.Gen.Kernel.Launch
import proofs.«164281_j49383533969583_2_alg».proof.Proof.Gen.Kernel.Skeleton
import proofs.«164281_j49383533969583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles and what it stores -/

abbrev rA1 : Rect S5000x64 := Rect.unit (s := S5000x64) ![0, 0] S5000x64.size inb_S5000x64_S5000x64_0_0
abbrev rD1 : Rect S5000x1 := Rect.unit (s := S5000x1) ![0, 0] S5000x1.size inb_S5000x1_S5000x1_0_0

/-- What the body leaves in output window 4's staging buffer, from the input blocks. -/
def out1_4 (x0 : Vec F S5000x64 .f32) (x1 : Vec F S5000x1 .f32) (x2 : Vec F S5000x64 .f32) (x3 : Vec F S5000x64 .f32) : Vec F S5000x64 .f32 :=
  View.canon [⟨rA1, k1_pay2 (View.ld x1 rD1) (View.ld x0 rA1) (View.ld x2 rA1) (View.ld x3 rA1)⟩]

/-- The one store covers the buffer. -/
theorem cover1_4 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y

/-- What the body leaves in output window 5's staging buffer, from the input blocks. -/
def out1_5 (x0 : Vec F S5000x64 .f32) (x1 : Vec F S5000x1 .f32) (x2 : Vec F S5000x64 .f32) (x3 : Vec F S5000x64 .f32) : Vec F S5000x64 .f32 :=
  View.canon [⟨rA1, k1_pay3 (View.ld x1 rD1) (View.ld x0 rA1) (View.ld x2 rA1) (View.ld x3 rA1)⟩]

/-- The one store covers the buffer. -/
theorem cover1_5 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y

/-! ## The body's triple -/

set_option maxHeartbeats 4000000 in
/-- The kernel body on whole staging memrefs, the inputs' at contents `x_j` and the outputs' at anything, runs to the
    continuation with the inputs' as they were and each output's at `out1_w` of the inputs. -/
theorem sound_kernel1 (c : Dev nD) (E : Set ℕ) (i : grid1.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole)
    (x0 : Vec F S5000x64 .f32) (x1 : Vec F S5000x1 .f32) (x2 : Vec F S5000x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__cheb_kernel i arg1 harg1 arg2 harg2 arg3 harg3 arg4 harg4 arg5 harg5 arg6 harg6) K := by
  simp only [cc1__cheb_kernel_eq_skeleton]; unfold cc1__cheb_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and each output's at `out1_w` of the input blocks; the invariant holds the scoped rest
    and the generator register, untouched; nothing owed. The two windows that read the same array hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KShares1.lean ====
/-
  Region 1 hands the feature array to the kernel through two input windows. The launch holds that array once, whole;
  the pipeline's proof data hold it twice, at the two halves of the whole share. This module says that the five
  distinct buffers behind the region's six windows, each held whole, ARE the six windows' arrays at the proof data's
  shares, for any contents read off one valuation: the whole share of the shared array splits into its halves and the
  halves join again.
-/
import proofs.«164281_j49383533969583_2_alg».proof.Proof.KBody1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows. -/
theorem arrRefs1 : Finset.univ.image (Pipeline.arrRef spec1)
    = ([main_v18, main_v7, main_arg0, main_v19_0, main_v19_1] : List (Ref sig .tc)).toFinset := by decide

theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl

set_option maxHeartbeats 8000000 in
/-- The buffers behind the arrays, whole, against the windows' arrays at the proof data's shares. -/
theorem arrBufs_arrays1 (c : Dev nD) (Vx : (b : Ref sig .tc) → Buf (Elt F) ((c.tc : Thread nD τ).loc b))
    (A : (w : Fin cfg1.W) → Buf (Elt F) ((cfg1.win w).arr.view.loc (c.tc : Thread nD τ)))
    (hA : ∀ w, A w = Vx (Pipeline.arrRef spec1 w)) :
    (Pipeline.arrBufs (Ix := Unit) (Name := ℕ) (U := UR sig nD τ) (Lvl := ℕ) spec1 c Vx : sProp 𝕄) ⊣⊢ (dat1 V c).arrays A := by
  unfold Pipeline.arrBufs Pipeline.Dat.arrays
  rw [show (bigSep (Finset.univ.image (Pipeline.arrRef spec1)) fun b => (((c.tc : Thread nD τ).loc b) ↦{fullShare} Vx b : sProp 𝕄))
      = iprop((((c.tc : Thread nD τ).loc main_v18) ↦{fullShare} Vx main_v18) ∗ (((c.tc : Thread nD τ).loc main_v7) ↦{fullShare} Vx main_v7)
        ∗ (((c.tc : Thread nD τ).loc main_arg0) ↦{fullShare} Vx main_arg0) ∗ (((c.tc : Thread nD τ).loc main_v19_0) ↦{fullShare} Vx main_v19_0)
        ∗ (((c.tc : Thread nD τ).loc main_v19_1) ↦{fullShare} Vx main_v19_1))
      from bigSep_eq_bigSepL_of_eq [main_v18, main_v7, main_arg0, main_v19_0, main_v19_1] arrRefs1 (by decide) _, bigSep_W1]
  rw [(arr_whole1 0).set_eq_univ, (arr_whole1 1).set_eq_univ, (arr_whole1 2).set_eq_univ,
    (arr_whole1 4).set_eq_univ, (arr_whole1 5).set_eq_univ, share1_0, share1_1, share1_2, share1_3, share1_4, share1_5,
    hA 0, hA 1, hA 2, hA 3, hA 4, hA 5]
  refine ⟨?_, ?_⟩
  · iintro ⟨H0, H1, H2, H4, H5⟩
    ihave H23 := (pointsTo_share (PosShare.mem_left_op_right fullShare)).1 $$ H2
    icases H23 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H23 := (pointsTo_share (PosShare.mem_left_op_right fullShare)).2 $$ [H2 H3]
    · isplitl [H2]; · iexact H2
      iexact H3
    isplitl [H0]; · iexact H0
    isplitl [H1]; · iexact H1
    isplitl [H23]; · iexact H23
    isplitl [H4]; · iexact H4
    iexact H5

end Cert.Kernel.Fr

end
-- ==== Proof.KRun.lean ====
/-
  The program's run: four pipelined regions among stretches of host operations. The contents of every unscoped
  buffer are followed from the launch through each stretch (the operations' composed result) and each region (its
  output arrays at what the pipeline's write-backs leave, every other buffer unchanged) to the return; every weakly
  fair execution terminates, without a fault, and the final memory holds each unscoped buffer at the last contents.
-/
import proofs.«164281_j49383533969583_2_alg».proof.Proof.Gen.Kernel.Regions
import proofs.«164281_j49383533969583_2_alg».proof.Proof.KBody0
import proofs.«164281_j49383533969583_2_alg».proof.Proof.KBody2
import proofs.«164281_j49383533969583_2_alg».proof.Proof.KBody3
import proofs.«164281_j49383533969583_2_alg».proof.Proof.KShares1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev E3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (E3 m ρ) c).arrAt w cfg0.N
theorem W4_arr (c : Dev nD) (w : Fin cfg0.W) :
    W4 m ρ c (Proc.devRef .tc (Pipeline.arrRef spec0 w)) = (dat0 (E3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev E4 : (c : Dev nD) → (b : Ref sig .tc) → Buf (Elt F) ((c : Thread nD τ).loc b) := fun c b => W4 m ρ c b
theorem hF0 (c : Dev nD) (w : Fin cfg0.W) : (dat0 (E3 m ρ) c).arrAt w cfg0.N = E4 m ρ c (Pipeline.arrRef spec0 w) :=
  (W4_arr m ρ c w).symm
theorem hrest0 (c : Dev nD) : ∀ b, b ∉ Finset.univ.image (Pipeline.arrRef spec0) → E4 m ρ c b = E3 m ρ c b :=
  fun b hb => W4_of_ne m ρ c b fun w e => hb (Finset.mem_image.mpr ⟨w, Finset.mem_univ _, e⟩)

/-- Region 1's entry. -/
abbrev W5 : Dev nD → Valuation τ sig (Elt F) := fun c => StableHlo.after hostOps1 (W4 m ρ c)
abbrev E5 : (c : Dev nD) → (b : Ref sig .tc) → Buf (Elt F) ((c : Thread nD τ).loc b) := fun c b => W5 m ρ c b

/-- At region 1's exit: its two output arrays at what the pipeline leaves, every other buffer as entered (two of its
    windows read one array, so the exit contents are written buffer by buffer). -/
def W6 (c : Dev nD) : Valuation τ sig (Elt F) :=
  Function.update (Function.update (W5 m ρ c) (Proc.devRef .tc main_v19_0) ((dat1 (E5 m ρ) c).arrAt 4 cfg1.N))
    (Proc.devRef .tc main_v19_1) ((dat1 (E5 m ρ) c).arrAt 5 cfg1.N)
theorem W6_of_ne (c : Dev nD) (b : Ref sig .tc) (h0 : b ≠ main_v19_0) (h1 : b ≠ main_v19_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
abbrev E6 : (c : Dev nD) → (b : Ref sig .tc) → Buf (Elt F) ((c : Thread nD τ).loc b) := fun c b => W6 m ρ c b
theorem hF1 (c : Dev nD) (w : Fin cfg1.W) : (dat1 (E5 m ρ) c).arrAt w cfg1.N = E6 m ρ c (Pipeline.arrRef spec1 w) :=
  match w with
  | ⟨0, _⟩ => (((dat1 (E5 m ρ) c).arrAt_in 0 rfl _).trans (A_eq1 (E5 m ρ) c 0)).trans (W6_of_ne m ρ c main_v18 (by decide) (by decide)).symm
  | ⟨1, _⟩ => (((dat1 (E5 m ρ) c).arrAt_in 1 rfl _).trans (A_eq1 (E5 m ρ) c 1)).trans (W6_of_ne m ρ c main_v7 (by decide) (by decide)).symm
  | ⟨2, _⟩ => (((dat1 (E5 m ρ) c).arrAt_in 2 rfl _).trans (A_eq1 (E5 m ρ) c 2)).trans (W6_of_ne m ρ c main_arg0 (by decide) (by decide)).symm
  | ⟨3, _⟩ => (((dat1 (E5 m ρ) c).arrAt_in 3 rfl _).trans (A_eq1 (E5 m ρ) c 3)).trans (W6_of_ne m ρ c main_arg0 (by decide) (by decide)).symm
  | ⟨4, _⟩ => by
      show _ = W6 m ρ c (Proc.devRef .tc main_v19_0)
      unfold W6
      rw [Function.update_of_ne (StableHlo.devRef_ne_of_ne (by decide)), Function.update_self]
      rfl
  | ⟨5, _⟩ => by
      show _ = W6 m ρ c (Proc.devRef .tc main_v19_1)
      unfold W6
      rw [Function.update_self]
      rfl
theorem hrest1 (c : Dev nD) : ∀ b, b ∉ Finset.univ.image (Pipeline.arrRef spec1) → E6 m ρ c b = E5 m ρ c b :=
  fun b hb => W6_of_ne m ρ c b (fun e => hb (Finset.mem_image.mpr ⟨4, Finset.mem_univ _, e.symm⟩))
    (fun e => hb (Finset.mem_image.mpr ⟨5, Finset.mem_univ _, e.symm⟩))

/-- Region 2's entry. -/
abbrev W7 : Dev nD → Valuation τ sig (Elt F) := fun c => StableHlo.after hostOps2 (W6 m ρ c)
abbrev E7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (E7 m ρ) c).arrAt w cfg2.N
theorem W8_arr (c : Dev nD) (w : Fin cfg2.W) :
    W8 m ρ c (Proc.devRef .tc (Pipeline.arrRef spec2 w)) = (dat2 (E7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev E8 : (c : Dev nD) → (b : Ref sig .tc) → Buf (Elt F) ((c : Thread nD τ).loc b) := fun c b => W8 m ρ c b
theorem hF2 (c : Dev nD) (w : Fin cfg2.W) : (dat2 (E7 m ρ) c).arrAt w cfg2.N = E8 m ρ c (Pipeline.arrRef spec2 w) :=
  (W8_arr m ρ c w).symm
theorem hrest2 (c : Dev nD) : ∀ b, b ∉ Finset.univ.image (Pipeline.arrRef spec2) → E8 m ρ c b = E7 m ρ c b :=
  fun b hb => W8_of_ne m ρ c b fun w e => hb (Finset.mem_image.mpr ⟨w, Finset.mem_univ _, e⟩)

/-- Region 3's entry. -/
abbrev W9 : Dev nD → Valuation τ sig (Elt F) := fun c => StableHlo.after hostOps3 (W8 m ρ c)
abbrev E9 : (c : Dev nD) → (b : Ref sig .tc) → Buf (Elt F) ((c : Thread nD τ).loc b) := fun c b => W9 m ρ c b

/-- At region 3's exit: its arrays at what the pipeline leaves, every other buffer as entered. -/
def W10 (c : Dev nD) : Valuation τ sig (Elt F) :=
  Pipeline.withArrays spec3 c (W9 m ρ c) fun w => (dat3 (E9 m ρ) c).arrAt w cfg3.N
theorem W10_arr (c : Dev nD) (w : Fin cfg3.W) :
    W10 m ρ c (Proc.devRef .tc (Pipeline.arrRef spec3 w)) = (dat3 (E9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev E10 : (c : Dev nD) → (b : Ref sig .tc) → Buf (Elt F) ((c : Thread nD τ).loc b) := fun c b => W10 m ρ c b
theorem hF3 (c : Dev nD) (w : Fin cfg3.W) : (dat3 (E9 m ρ) c).arrAt w cfg3.N = E10 m ρ c (Pipeline.arrRef spec3 w) :=
  (W10_arr m ρ c w).symm
theorem hrest3 (c : Dev nD) : ∀ b, b ∉ Finset.univ.image (Pipeline.arrRef spec3) → E10 m ρ c b = E9 m ρ c b :=
  fun b hb => W10_of_ne m ρ c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E5 m ρ) c
  | ⟨2, _⟩ => fun c => dat2 (E7 m ρ) c
  | ⟨3, _⟩ => fun c => dat3 (E9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W3`, left with them at `W4`. Its
    arrays are split out of the unscoped buffers and put back at their exit contents; the generator register goes into
    the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E3 m ρ c) (E4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Two of its
    input windows read one array: at entry that array's whole share is split in halves between them, at exit the halves
    are joined again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit : (unscopedBufs (Ix := Unit) (Name := ℕ) (U := UR sig nD τ) (Lvl := ℕ) c (E5 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (E5 m ρ c)) := by
      rw [Pipeline.unscopedBufs_split₀ cfgs 1 winFacts₀1.arr_unscoped c (E5 m ρ c)]
      exact sep_mono (arrBufs_arrays1 (E5 m ρ) c (E5 m ρ c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E5 m ρ c))
        ⊢ (unscopedBufs (Ix := Unit) (Name := ℕ) (U := UR sig nD τ) (Lvl := ℕ) c (E6 m ρ c) : sProp 𝕄) := by
      rw [Pipeline.unscopedBufs_split₀ cfgs 1 winFacts₀1.arr_unscoped c (E6 m ρ c)]
      refine sep_mono (arrBufs_arrays1 (E5 m ρ) c (E6 m ρ c) _ (hF1 m ρ c)).2 (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its
    arrays are split out of the unscoped buffers and put back at their exit contents; the generator register goes into
    the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (E7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E7 m ρ c) (E8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its
    arrays are split out of the unscoped buffers and put back at their exit contents; the generator register goes into
    the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E9 m ρ c) (E10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's ten items in order. -/
abbrev segs (c : Dev nD) : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]

set_option backward.isDefEq.respectTransparency.types false in
/-- THE RUN: from any memory with zero counters every weakly fair execution of @main terminates, nothing faulting, and
    the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_dev (pcfgs (F := F)) adm (pdats m ρ) () cellOf_inj emb₁ defs₀ 𝒱₀ L lv m ρ main (segs m ρ)
    (fun c Q => by
      rewrite [main_chain c, Seg.run_eq_chain,
        show (segs m ρ c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Fr

end
-- ==== Proof.KKeep.lean ====
/-
  What each host stretch and each region leaves alone: a buffer that no operation of a stretch writes, and that is no
  output array of a region, keeps its contents through it. In particular the five argument arrays reach every region,
  and the return, as launched.
-/
import proofs.«164281_j49383533969583_2_alg».proof.Proof.KRun
import Idealize.ShloMosaic.Lib.StableHlo.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg) (c : Dev nD)

theorem keep1 (r : Ref sig .tc) (h : r ∉ hostOps0_W) : W1 m ρ c (Proc.devRef .tc r) = W0 m ρ c (Proc.devRef .tc r) :=
  after_of_writes_sub hostOps0 _ hostOps0_writes h
theorem keep2 (r : Ref sig .tc) (h : r ∉ hostOps0_1_W) : W2 m ρ c (Proc.devRef .tc r) = W1 m ρ c (Proc.devRef .tc r) :=
  after_of_writes_sub hostOps0_1 _ hostOps0_1_writes h
theorem keep3 (r : Ref sig .tc) (h : r ∉ hostOps0_2_W) : W3 m ρ c (Proc.devRef .tc r) = W2 m ρ c (Proc.devRef .tc r) :=
  after_of_writes_sub hostOps0_2 _ hostOps0_2_writes h
theorem keep5 (r : Ref sig .tc) (h : r ∉ hostOps1_W) : W5 m ρ c (Proc.devRef .tc r) = W4 m ρ c (Proc.devRef .tc r) :=
  after_of_writes_sub hostOps1 _ hostOps1_writes h
theorem keep7 (r : Ref sig .tc) (h : r ∉ hostOps2_W) : W7 m ρ c (Proc.devRef .tc r) = W6 m ρ c (Proc.devRef .tc r) :=
  after_of_writes_sub hostOps2 _ hostOps2_writes h
theorem keep9 (r : Ref sig .tc) (h : r ∉ hostOps3_W) : W9 m ρ c (Proc.devRef .tc r) = W8 m ρ c (Proc.devRef .tc r) :=
  after_of_writes_sub hostOps3 _ hostOps3_writes h

/-- Region 0 changes its output array only. -/
theorem keep4 (r : Ref sig .tc) (h : r ≠ main_v8) : W4 m ρ c (Proc.devRef .tc r) = W3 m ρ c (Proc.devRef .tc r) := by
  by_cases hr : ∃ w, Pipeline.arrRef spec0 w = r
  · obtain ⟨w, rfl⟩ := hr
    match w with
    | ⟨0, _⟩ => exact (W4_arr m ρ c 0).trans (((dat0 (E3 m ρ) c).arrAt_in 0 rfl _).trans (A_eq0 (E3 m ρ) c 0))
    | ⟨1, _⟩ => exact (W4_arr m ρ c 1).trans (((dat0 (E3 m ρ) c).arrAt_in 1 rfl _).trans (A_eq0 (E3 m ρ) c 1))
    | ⟨2, _⟩ => exact absurd rfl h
  · exact W4_of_ne m ρ c r fun w e => hr ⟨w, e⟩

/-- Region 1 changes its two output arrays only. -/
theorem keep6 (r : Ref sig .tc) (h0 : r ≠ main_v19_0) (h1 : r ≠ main_v19_1) : W6 m ρ c (Proc.devRef .tc r) = W5 m ρ c (Proc.devRef .tc r) :=
  W6_of_ne m ρ c r h0 h1

/-- Region 2 changes its two output arrays only. -/
theorem keep8 (r : Ref sig .tc) (h0 : r ≠ main_v30_0) (h1 : r ≠ main_v30_1) : W8 m ρ c (Proc.devRef .tc r) = W7 m ρ c (Proc.devRef .tc r) := by
  by_cases hr : ∃ w, Pipeline.arrRef spec2 w = r
  · obtain ⟨w, rfl⟩ := hr
    match w with
    | ⟨0, _⟩ => exact (W8_arr m ρ c 0).trans (((dat2 (E7 m ρ) c).arrAt_in 0 rfl _).trans (A_eq2 (E7 m ρ) c 0))
    | ⟨1, _⟩ => exact (W8_arr m ρ c 1).trans (((dat2 (E7 m ρ) c).arrAt_in 1 rfl _).trans (A_eq2 (E7 m ρ) c 1))
    | ⟨2, _⟩ => exact (W8_arr m ρ c 2).trans (((dat2 (E7 m ρ) c).arrAt_in 2 rfl _).trans (A_eq2 (E7 m ρ) c 2))
    | ⟨3, _⟩ => exact (W8_arr m ρ c 3).trans (((dat2 (E7 m ρ) c).arrAt_in 3 rfl _).trans (A_eq2 (E7 m ρ) c 3))
    | ⟨4, _⟩ => exact absurd rfl h0
    | ⟨5, _⟩ => exact absurd rfl h1
  · exact W8_of_ne m ρ c r fun w e => hr ⟨w, e⟩

/-- Region 3 changes its output array only. -/
theorem keep10 (r : Ref sig .tc) (h : r ≠ main_v32) : W10 m ρ c (Proc.devRef .tc r) = W9 m ρ c (Proc.devRef .tc r) := by
  by_cases hr : ∃ w, Pipeline.arrRef spec3 w = r
  · obtain ⟨w, rfl⟩ := hr
    match w with
    | ⟨0, _⟩ => exact (W10_arr m ρ c 0).trans (((dat3 (E9 m ρ) c).arrAt_in 0 rfl _).trans (A_eq3 (E9 m ρ) c 0))
    | ⟨1, _⟩ => exact (W10_arr m ρ c 1).trans (((dat3 (E9 m ρ) c).arrAt_in 1 rfl _).trans (A_eq3 (E9 m ρ) c 1))
    | ⟨2, _⟩ => exact (W10_arr m ρ c 2).trans (((dat3 (E9 m ρ) c).arrAt_in 2 rfl _).trans (A_eq3 (E9 m ρ) c 2))
    | ⟨3, _⟩ => exact (W10_arr m ρ c 3).trans (((dat3 (E9 m ρ) c).arrAt_in 3 rfl _).trans (A_eq3 (E9 m ρ) c 3))
    | ⟨4, _⟩ => exact (W10_arr m ρ c 4).trans (((dat3 (E9 m ρ) c).arrAt_in 4 rfl _).trans (A_eq3 (E9 m ρ) c 4))
    | ⟨5, _⟩ => exact absurd rfl h
  · exact W10_of_ne m ρ c r fun w e => hr ⟨w, e⟩

/-- A buffer nothing writes before region 0 is as launched when region 0 is entered, -/
theorem at3 (r : Ref sig .tc) (h1 : r ∉ hostOps0_W) (h2 : r ∉ hostOps0_1_W) (h3 : r ∉ hostOps0_2_W) :
    W3 m ρ c (Proc.devRef .tc r) = m ((c : Thread nD τ).loc r) :=
  (keep3 m ρ c r h3).trans ((keep2 m ρ c r h2).trans ((keep1 m ρ c r h1).trans rfl))
/-- when region 1 is entered, -/
theorem at5 (r : Ref sig .tc) (h1 : r ∉ hostOps0_W) (h2 : r ∉ hostOps0_1_W) (h3 : r ∉ hostOps0_2_W) (h4 : r ≠ main_v8) (h5 : r ∉ hostOps1_W) :
    W5 m ρ c (Proc.devRef .tc r) = m ((c : Thread nD τ).loc r) :=
  (keep5 m ρ c r h5).trans ((keep4 m ρ c r h4).trans (at3 m ρ c r h1 h2 h3))
/-- when region 2 is entered, -/
theorem at7 (r : Ref sig .tc) (h1 : r ∉ hostOps0_W) (h2 : r ∉ hostOps0_1_W) (h3 : r ∉ hostOps0_2_W) (h4 : r ≠ main_v8) (h5 : r ∉ hostOps1_W)
    (h6 : r ≠ main_v19_0) (h6' : r ≠ main_v19_1) (h7 : r ∉ hostOps2_W) :
    W7 m ρ c (Proc.devRef .tc r) = m ((c : Thread nD τ).loc r) :=
  (keep7 m ρ c r h7).trans ((keep6 m ρ c r h6 h6').trans (at5 m ρ c r h1 h2 h3 h4 h5))
/-- when region 3 is entered, -/
theorem at9 (r : Ref sig .tc) (h1 : r ∉ hostOps0_W) (h2 : r ∉ hostOps0_1_W) (h3 : r ∉ hostOps0_2_W) (h4 : r ≠ main_v8) (h5 : r ∉ hostOps1_W)
    (h6 : r ≠ main_v19_0) (h6' : r ≠ main_v19_1) (h7 : r ∉ hostOps2_W) (h8 : r ≠ main_v30_0) (h8' : r ≠ main_v30_1) (h9 : r ∉ hostOps3_W) :
    W9 m ρ c (Proc.devRef .tc r) = m ((c : Thread nD τ).loc r) :=
  (keep9 m ρ c r h9).trans ((keep8 m ρ c r h8 h8').trans (at7 m ρ c r h1 h2 h3 h4 h5 h6 h6' h7))
/-- and at the return. -/
theorem at10 (r : Ref sig .tc) (h1 : r ∉ hostOps0_W) (h2 : r ∉ hostOps0_1_W) (h3 : r ∉ hostOps0_2_W) (h4 : r ≠ main_v8) (h5 : r ∉ hostOps1_W)
    (h6 : r ≠ main_v19_0) (h6' : r ≠ main_v19_1) (h7 : r ∉ hostOps2_W) (h8 : r ≠ main_v30_0) (h8' : r ≠ main_v30_1) (h9 : r ∉ hostOps3_W)
    (h10 : r ≠ main_v32) :
    W10 m ρ c (Proc.devRef .tc r) = m ((c : Thread nD τ).loc r) :=
  (keep10 m ρ c r h10).trans (at9 m ρ c r h1 h2 h3 h4 h5 h6 h6' h7 h8 h8' h9)

/-! ## The five argument arrays at the return -/
theorem arg0_10 : W10 m ρ c (Proc.devRef .tc main_arg0) = m ((c : Thread nD τ).loc main_arg0) :=
  at10 m ρ c main_arg0 (by decide) (by decide) (by decide) (by decide) (by decide) (by decide) (by decide) (by decide) (by decide) (by decide) (by decide) (by decide)
theorem arg1_10 : W10 m ρ c (Proc.devRef .tc main_arg1) = m ((c : Thread nD τ).loc main_arg1) :=
  at10 m ρ c main_arg1 (by decide) (by decide) (by decide) (by decide) (by decide) (by decide) (by decide) (by decide) (by decide) (by decide) (by decide) (by decide)
theorem arg2_10 : W10 m ρ c (Proc.devRef .tc main_arg2) = m ((c : Thread nD τ).loc main_arg2) :=
  at10 m ρ c main_arg2 (by decide) (by decide) (by decide) (by decide) (by decide) (by decide) (by decide) (by decide) (by decide) (by decide) (by decide) (by decide)
theorem arg3_10 : W10 m ρ c (Proc.devRef .tc main_arg3) = m ((c : Thread nD τ).loc main_arg3) :=
  at10 m ρ c main_arg3 (by decide) (by decide) (by decide) (by decide) (by decide) (by decide) (by decide) (by decide) (by decide) (by decide) (by decide) (by decide)
theorem arg4_10 : W10 m ρ c (Proc.devRef .tc main_arg4) = m ((c : Thread nD τ).loc main_arg4) :=
  at10 m ρ c main_arg4 (by decide) (by decide) (by decide) (by decide) (by decide) (by decide) (by decide) (by decide) (by decide) (by decide) (by decide) (by decide)

end Cert.Kernel.Fr

end
-- ==== Proof.Body0.lean ====
/-
  Region 0 of the program, the row scaling: one grid point of the kernel run on whole staging buffers, and the
  pipeline's proof data at an arbitrary entry valuation `V`.

  At a grid point every input window's staging buffer holds the window's block of its array, and the body leaves
  in every output window's staging buffer the value it stores there: a pure function of the input blocks
  (`out0_w`). The body obligation of the pipeline follows at every point.
-/
import proofs.«164281_j49383533969583_2_alg».proof.Proof.Gen.KernelIdeal.Launch
import proofs.«164281_j49383533969583_2_alg».proof.Proof.Gen.KernelIdeal.Skeleton
import proofs.«164281_j49383533969583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles and what it stores -/

abbrev rA0 : Rect S5000x64 := Rect.unit (s := S5000x64) ![0, 0] S5000x64.size inb_S5000x64_S5000x64_0_0
abbrev rD0 : Rect S5000x1 := Rect.unit (s := S5000x1) ![0, 0] S5000x1.size inb_S5000x1_S5000x1_0_0

/-- What the body leaves in output window 2's staging buffer, from the input blocks. -/
def out0_2 (x0 : Vec F S5000x64 .f32) (x1 : Vec F S5000x1 .f32) : Vec F S5000x64 .f32 :=
  View.canon [⟨rA0, k0_pay1 (View.ld x0 rA0) (View.ld x1 rD0)⟩]

/-- The one store covers the buffer. -/
theorem cover0_2 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y

/-! ## The body's triple -/

set_option maxHeartbeats 4000000 in
/-- The kernel body on whole staging memrefs, the inputs' at contents `x_j` and the outputs' at anything, runs to the
    continuation with the inputs' as they were and each output's at `out0_w` of the inputs. -/
theorem sound_kernel0 (c : Dev nD) (E : Set ℕ) (i : grid0.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole)
    (x0 : Vec F S5000x64 .f32) (x1 : Vec F S5000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and each output's at `out0_w` of the input blocks; the invariant holds the scoped rest
    and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Body2.lean ====
/-
  Region 2 of the program, the second recursion step: one grid point of the kernel run on whole staging buffers, and the
  pipeline's proof data at an arbitrary entry valuation `V`.

  At a grid point every input window's staging buffer holds the window's block of its array, and the body leaves
  in every output window's staging buffer the value it stores there: a pure function of the input blocks
  (`out2_w`). The body obligation of the pipeline follows at every point.
-/
import proofs.«164281_j49383533969583_2_alg».proof.Proof.Gen.KernelIdeal.Launch
import proofs.«164281_j49383533969583_2_alg».proof.Proof.Gen.KernelIdeal.Skeleton
import proofs.«164281_j49383533969583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles and what it stores -/

abbrev rA2 : Rect S5000x64 := Rect.unit (s := S5000x64) ![0, 0] S5000x64.size inb_S5000x64_S5000x64_0_0
abbrev rD2 : Rect S5000x1 := Rect.unit (s := S5000x1) ![0, 0] S5000x1.size inb_S5000x1_S5000x1_0_0

/-- What the body leaves in output window 4's staging buffer, from the input blocks. -/
def out2_4 (x0 : Vec F S5000x64 .f32) (x1 : Vec F S5000x1 .f32) (x2 : Vec F S5000x64 .f32) (x3 : Vec F S5000x64 .f32) : Vec F S5000x64 .f32 :=
  View.canon [⟨rA2, k2_pay2 (View.ld x1 rD2) (View.ld x0 rA2) (View.ld x2 rA2) (View.ld x3 rA2)⟩]

/-- The one store covers the buffer. -/
theorem cover2_4 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y

/-- What the body leaves in output window 5's staging buffer, from the input blocks. -/
def out2_5 (x0 : Vec F S5000x64 .f32) (x1 : Vec F S5000x1 .f32) (x2 : Vec F S5000x64 .f32) (x3 : Vec F S5000x64 .f32) : Vec F S5000x64 .f32 :=
  View.canon [⟨rA2, k2_pay3 (View.ld x1 rD2) (View.ld x0 rA2) (View.ld x2 rA2) (View.ld x3 rA2)⟩]

/-- The one store covers the buffer. -/
theorem cover2_5 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y

/-! ## The body's triple -/

set_option maxHeartbeats 4000000 in
/-- The kernel body on whole staging memrefs, the inputs' at contents `x_j` and the outputs' at anything, runs to the
    continuation with the inputs' as they were and each output's at `out2_w` of the inputs. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole)
    (x0 : Vec F S5000x64 .f32) (x1 : Vec F S5000x1 .f32) (x2 : Vec F S5000x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__cheb_kernel i arg1 harg1 arg2 harg2 arg3 harg3 arg4 harg4 arg5 harg5 arg6 harg6) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and each output's at `out2_w` of the input blocks; the invariant holds the scoped rest
    and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Body3.lean ====
/-
  Region 3 of the program, the three products, the bias and the clamp: one grid point of the kernel run on whole staging buffers, and the
  pipeline's proof data at an arbitrary entry valuation `V`.

  At a grid point every input window's staging buffer holds the window's block of its array, and the body leaves
  in every output window's staging buffer the value it stores there: a pure function of the input blocks
  (`out3_w`). The body obligation of the pipeline follows at every point.
-/
import proofs.«164281_j49383533969583_2_alg».proof.Proof.Gen.KernelIdeal.Launch
import proofs.«164281_j49383533969583_2_alg».proof.Proof.Gen.KernelIdeal.Skeleton
import proofs.«164281_j49383533969583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's rectangles and what it stores -/

abbrev rA3 : Rect S5000x64 := Rect.unit (s := S5000x64) ![0, 0] S5000x64.size inb_S5000x64_S5000x64_0_0
abbrev rW0 : Rect S192x64 := Rect.unit (s := S192x64) ![0, 0] S64x64.size inb_S192x64_S64x64_0_0
abbrev rW1 : Rect S192x64 := Rect.unit (s := S192x64) ![64, 0] S64x64.size inb_S192x64_S64x64_64_0
abbrev rW2 : Rect S192x64 := Rect.unit (s := S192x64) ![128, 0] S64x64.size inb_S192x64_S64x64_128_0
abbrev rB : Rect S1x64 := Rect.unit (s := S1x64) ![0, 0] S1x64.size inb_S1x64_S1x64_0_0

/-- What the body leaves in output window 5's staging buffer, from the input blocks. -/
def out3_5 (x0 : Vec F S5000x64 .f32) (x1 : Vec F S5000x64 .f32) (x2 : Vec F S5000x64 .f32) (x3 : Vec F S192x64 .f32) (x4 : Vec F S1x64 .f32) : Vec F S5000x64 .f32 :=
  View.canon [⟨rA3, k3_pay1 (View.ld x3 rW0) (View.ld x3 rW1) (View.ld x3 rW2) (View.ld x0 rA3) (View.ld x1 rA3) (View.ld x2 rA3) (View.ld x4 rB)⟩]

/-- The one store covers the buffer. -/
theorem cover3_5 (p0 : Vec F S5000x64 .f32) (y : S5000x64.Idx) :
    ∃ pc ∈ ([⟨rA3, p0⟩] : List (View.Piece (Elt F) S5000x64 .f32)), y ∈ pc.1.set :=
  View.cover_of_tiled [⟨rA3, p0⟩] S5000x64.size (by rfl) y

/-! ## The body's triple -/

set_option maxHeartbeats 4000000 in
/-- The kernel body on whole staging memrefs, the inputs' at contents `x_j` and the outputs' at anything, runs to the
    continuation with the inputs' as they were and each output's at `out3_w` of the inputs. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S192x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S5000x64 .f32) (x3 : Vec F S192x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__matmul_relu_kernel i arg1 harg1 arg2 harg2 arg3 harg3 arg4 harg4 arg5 harg5 arg6 harg6) K := by
  simp only [cc3__matmul_relu_kernel_eq_skeleton]; unfold cc3__matmul_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and each output's at `out3_w` of the input blocks; the invariant holds the scoped rest
    and the generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 4000000 in
/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.Body1.lean ====
/-
  Region 1 of the program, the first recursion step: one grid point of the kernel run on whole staging buffers, and the
  pipeline's proof data at an arbitrary entry valuation `V`.

  At a grid point every input window's staging buffer holds the window's block of its array, and the body leaves
  in every output window's staging buffer the value it stores there: a pure function of the input blocks
  (`out1_w`). The body obligation of the pipeline follows at every point.
-/
import proofs.«164281_j49383533969583_2_alg».proof.Proof.Gen.KernelIdeal.Launch
import proofs.«164281_j49383533969583_2_alg».proof.Proof.Gen.KernelIdeal.Skeleton
import proofs.«164281_j49383533969583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles and what it stores -/

abbrev rA1 : Rect S5000x64 := Rect.unit (s := S5000x64) ![0, 0] S5000x64.size inb_S5000x64_S5000x64_0_0
abbrev rD1 : Rect S5000x1 := Rect.unit (s := S5000x1) ![0, 0] S5000x1.size inb_S5000x1_S5000x1_0_0

/-- What the body leaves in output window 4's staging buffer, from the input blocks. -/
def out1_4 (x0 : Vec F S5000x64 .f32) (x1 : Vec F S5000x1 .f32) (x2 : Vec F S5000x64 .f32) (x3 : Vec F S5000x64 .f32) : Vec F S5000x64 .f32 :=
  View.canon [⟨rA1, k1_pay2 (View.ld x1 rD1) (View.ld x0 rA1) (View.ld x2 rA1) (View.ld x3 rA1)⟩]

/-- The one store covers the buffer. -/
theorem cover1_4 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y

/-- What the body leaves in output window 5's staging buffer, from the input blocks. -/
def out1_5 (x0 : Vec F S5000x64 .f32) (x1 : Vec F S5000x1 .f32) (x2 : Vec F S5000x64 .f32) (x3 : Vec F S5000x64 .f32) : Vec F S5000x64 .f32 :=
  View.canon [⟨rA1, k1_pay3 (View.ld x1 rD1) (View.ld x0 rA1) (View.ld x2 rA1) (View.ld x3 rA1)⟩]

/-- The one store covers the buffer. -/
theorem cover1_5 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y

/-! ## The body's triple -/

set_option maxHeartbeats 4000000 in
/-- The kernel body on whole staging memrefs, the inputs' at contents `x_j` and the outputs' at anything, runs to the
    continuation with the inputs' as they were and each output's at `out1_w` of the inputs. -/
theorem sound_kernel1 (c : Dev nD) (E : Set ℕ) (i : grid1.Coords) (arg1 : Memref sig .tc .vmem S5000x64 .f32) (harg1 : arg1.IsWhole) (arg2 : Memref sig .tc .vmem S5000x1 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole)
    (x0 : Vec F S5000x64 .f32) (x1 : Vec F S5000x1 .f32) (x2 : Vec F S5000x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__cheb_kernel i arg1 harg1 arg2 harg2 arg3 harg3 arg4 harg4 arg5 harg5 arg6 harg6) K := by
  simp only [cc1__cheb_kernel_eq_skeleton]; unfold cc1__cheb_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and each output's at `out1_w` of the input blocks; the invariant holds the scoped rest
    and the generator register, untouched; nothing owed. The two windows that read the same array hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Shares1.lean ====
/-
  Region 1 hands the feature array to the kernel through two input windows. The launch holds that array once, whole;
  the pipeline's proof data hold it twice, at the two halves of the whole share. This module says that the five
  distinct buffers behind the region's six windows, each held whole, ARE the six windows' arrays at the proof data's
  shares, for any contents read off one valuation: the whole share of the shared array splits into its halves and the
  halves join again.
-/
import proofs.«164281_j49383533969583_2_alg».proof.Proof.Body1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows. -/
theorem arrRefs1 : Finset.univ.image (Pipeline.arrRef spec1)
    = ([main_v18, main_v7, main_arg0, main_v19_0, main_v19_1] : List (Ref sig .tc)).toFinset := by decide

theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl

set_option maxHeartbeats 8000000 in
/-- The buffers behind the arrays, whole, against the windows' arrays at the proof data's shares. -/
theorem arrBufs_arrays1 (c : Dev nD) (Vx : (b : Ref sig .tc) → Buf (Elt F) ((c.tc : Thread nD τ).loc b))
    (A : (w : Fin cfg1.W) → Buf (Elt F) ((cfg1.win w).arr.view.loc (c.tc : Thread nD τ)))
    (hA : ∀ w, A w = Vx (Pipeline.arrRef spec1 w)) :
    (Pipeline.arrBufs (Ix := Unit) (Name := ℕ) (U := UR sig nD τ) (Lvl := ℕ) spec1 c Vx : sProp 𝕄) ⊣⊢ (dat1 V c).arrays A := by
  unfold Pipeline.arrBufs Pipeline.Dat.arrays
  rw [show (bigSep (Finset.univ.image (Pipeline.arrRef spec1)) fun b => (((c.tc : Thread nD τ).loc b) ↦{fullShare} Vx b : sProp 𝕄))
      = iprop((((c.tc : Thread nD τ).loc main_v18) ↦{fullShare} Vx main_v18) ∗ (((c.tc : Thread nD τ).loc main_v7) ↦{fullShare} Vx main_v7)
        ∗ (((c.tc : Thread nD τ).loc main_arg0) ↦{fullShare} Vx main_arg0) ∗ (((c.tc : Thread nD τ).loc main_v19_0) ↦{fullShare} Vx main_v19_0)
        ∗ (((c.tc : Thread nD τ).loc main_v19_1) ↦{fullShare} Vx main_v19_1))
      from bigSep_eq_bigSepL_of_eq [main_v18, main_v7, main_arg0, main_v19_0, main_v19_1] arrRefs1 (by decide) _, bigSep_W1]
  rw [(arr_whole1 0).set_eq_univ, (arr_whole1 1).set_eq_univ, (arr_whole1 2).set_eq_univ,
    (arr_whole1 4).set_eq_univ, (arr_whole1 5).set_eq_univ, share1_0, share1_1, share1_2, share1_3, share1_4, share1_5,
    hA 0, hA 1, hA 2, hA 3, hA 4, hA 5]
  refine ⟨?_, ?_⟩
  · iintro ⟨H0, H1, H2, H4, H5⟩
    ihave H23 := (pointsTo_share (PosShare.mem_left_op_right fullShare)).1 $$ H2
    icases H23 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H23 := (pointsTo_share (PosShare.mem_left_op_right fullShare)).2 $$ [H2 H3]
    · isplitl [H2]; · iexact H2
      iexact H3
    isplitl [H0]; · iexact H0
    isplitl [H1]; · iexact H1
    isplitl [H23]; · iexact H23
    isplitl [H4]; · iexact H4
    iexact H5

end Cert.KernelIdeal.Fr

end
-- ==== Proof.Run.lean ====
/-
  The program's run: four pipelined regions among stretches of host operations. The contents of every unscoped
  buffer are followed from the launch through each stretch (the operations' composed result) and each region (its
  output arrays at what the pipeline's write-backs leave, every other buffer unchanged) to the return; every weakly
  fair execution terminates, without a fault, and the final memory holds each unscoped buffer at the last contents.
-/
import proofs.«164281_j49383533969583_2_alg».proof.Proof.Gen.KernelIdeal.Regions
import proofs.«164281_j49383533969583_2_alg».proof.Proof.Body0
import proofs.«164281_j49383533969583_2_alg».proof.Proof.Body2
import proofs.«164281_j49383533969583_2_alg».proof.Proof.Body3
import proofs.«164281_j49383533969583_2_alg».proof.Proof.Shares1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev E3 : (c : Dev nD) → (b : Ref sig .tc) → Buf (Elt F) ((c : Thread nD τ).loc b) := fun c b => W3 m ρ c b

/-- At region 0's exit: its arrays at what the pipeline leaves, every other buffer as entered. -/
def W4 (c : Dev nD) : Valuation τ sig (Elt F) :=
  Pipeline.withArrays spec0 c (W3 m ρ c) fun w => (dat0 (E3 m ρ) c).arrAt w cfg0.N
theorem W4_arr (c : Dev nD) (w : Fin cfg0.W) :
    W4 m ρ c (Proc.devRef .tc (Pipeline.arrRef spec0 w)) = (dat0 (E3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev E4 : (c : Dev nD) → (b : Ref sig .tc) → Buf (Elt F) ((c : Thread nD τ).loc b) := fun c b => W4 m ρ c b
theorem hF0 (c : Dev nD) (w : Fin cfg0.W) : (dat0 (E3 m ρ) c).arrAt w cfg0.N = E4 m ρ c (Pipeline.arrRef spec0 w) :=
  (W4_arr m ρ c w).symm
theorem hrest0 (c : Dev nD) : ∀ b, b ∉ Finset.univ.image (Pipeline.arrRef spec0) → E4 m ρ c b = E3 m ρ c b :=
  fun b hb => W4_of_ne m ρ c b fun w e => hb (Finset.mem_image.mpr ⟨w, Finset.mem_univ _, e⟩)

/-- Region 1's entry. -/
abbrev W5 : Dev nD → Valuation τ sig (Elt F) := fun c => StableHlo.after hostOps1 (W4 m ρ c)
abbrev E5 : (c : Dev nD) → (b : Ref sig .tc) → Buf (Elt F) ((c : Thread nD τ).loc b) := fun c b => W5 m ρ c b

/-- At region 1's exit: its two output arrays at what the pipeline leaves, every other buffer as entered (two of its
    windows read one array, so the exit contents are written buffer by buffer). -/
def W6 (c : Dev nD) : Valuation τ sig (Elt F) :=
  Function.update (Function.update (W5 m ρ c) (Proc.devRef .tc main_v19_0) ((dat1 (E5 m ρ) c).arrAt 4 cfg1.N))
    (Proc.devRef .tc main_v19_1) ((dat1 (E5 m ρ) c).arrAt 5 cfg1.N)
theorem W6_of_ne (c : Dev nD) (b : Ref sig .tc) (h0 : b ≠ main_v19_0) (h1 : b ≠ main_v19_1) :
    W6 m ρ c (Proc.devRef .tc b) = W5 m ρ c (Proc.devRef .tc b) := by
  unfold W6
  rw [Function.update_of_ne (StableHlo.devRef_ne_of_ne h1), Function.update_of_ne (StableHlo.devRef_ne_of_ne h0)]
abbrev E6 : (c : Dev nD) → (b : Ref sig .tc) → Buf (Elt F) ((c : Thread nD τ).loc b) := fun c b => W6 m ρ c b
theorem hF1 (c : Dev nD) (w : Fin cfg1.W) : (dat1 (E5 m ρ) c).arrAt w cfg1.N = E6 m ρ c (Pipeline.arrRef spec1 w) :=
  match w with
  | ⟨0, _⟩ => (((dat1 (E5 m ρ) c).arrAt_in 0 rfl _).trans (A_eq1 (E5 m ρ) c 0)).trans (W6_of_ne m ρ c main_v18 (by decide) (by decide)).symm
  | ⟨1, _⟩ => (((dat1 (E5 m ρ) c).arrAt_in 1 rfl _).trans (A_eq1 (E5 m ρ) c 1)).trans (W6_of_ne m ρ c main_v7 (by decide) (by decide)).symm
  | ⟨2, _⟩ => (((dat1 (E5 m ρ) c).arrAt_in 2 rfl _).trans (A_eq1 (E5 m ρ) c 2)).trans (W6_of_ne m ρ c main_arg0 (by decide) (by decide)).symm
  | ⟨3, _⟩ => (((dat1 (E5 m ρ) c).arrAt_in 3 rfl _).trans (A_eq1 (E5 m ρ) c 3)).trans (W6_of_ne m ρ c main_arg0 (by decide) (by decide)).symm
  | ⟨4, _⟩ => by
      show _ = W6 m ρ c (Proc.devRef .tc main_v19_0)
      unfold W6
      rw [Function.update_of_ne (StableHlo.devRef_ne_of_ne (by decide)), Function.update_self]
      rfl
  | ⟨5, _⟩ => by
      show _ = W6 m ρ c (Proc.devRef .tc main_v19_1)
      unfold W6
      rw [Function.update_self]
      rfl
theorem hrest1 (c : Dev nD) : ∀ b, b ∉ Finset.univ.image (Pipeline.arrRef spec1) → E6 m ρ c b = E5 m ρ c b :=
  fun b hb => W6_of_ne m ρ c b (fun e => hb (Finset.mem_image.mpr ⟨4, Finset.mem_univ _, e.symm⟩))
    (fun e => hb (Finset.mem_image.mpr ⟨5, Finset.mem_univ _, e.symm⟩))

/-- Region 2's entry. -/
abbrev W7 : Dev nD → Valuation τ sig (Elt F) := fun c => StableHlo.after hostOps2 (W6 m ρ c)
abbrev E7 : (c : Dev nD) → (b : Ref sig .tc) → Buf (Elt F) ((c : Thread nD τ).loc b) := fun c b => W7 m ρ c b

/-- At region 2's exit: its arrays at what the pipeline leaves, every other buffer as entered. -/
def W8 (c : Dev nD) : Valuation τ sig (Elt F) :=
  Pipeline.withArrays spec2 c (W7 m ρ c) fun w => (dat2 (E7 m ρ) c).arrAt w cfg2.N
theorem W8_arr (c : Dev nD) (w : Fin cfg2.W) :
    W8 m ρ c (Proc.devRef .tc (Pipeline.arrRef spec2 w)) = (dat2 (E7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev E8 : (c : Dev nD) → (b : Ref sig .tc) → Buf (Elt F) ((c : Thread nD τ).loc b) := fun c b => W8 m ρ c b
theorem hF2 (c : Dev nD) (w : Fin cfg2.W) : (dat2 (E7 m ρ) c).arrAt w cfg2.N = E8 m ρ c (Pipeline.arrRef spec2 w) :=
  (W8_arr m ρ c w).symm
theorem hrest2 (c : Dev nD) : ∀ b, b ∉ Finset.univ.image (Pipeline.arrRef spec2) → E8 m ρ c b = E7 m ρ c b :=
  fun b hb => W8_of_ne m ρ c b fun w e => hb (Finset.mem_image.mpr ⟨w, Finset.mem_univ _, e⟩)

/-- Region 3's entry. -/
abbrev W9 : Dev nD → Valuation τ sig (Elt F) := fun c => StableHlo.after hostOps3 (W8 m ρ c)
abbrev E9 : (c : Dev nD) → (b : Ref sig .tc) → Buf (Elt F) ((c : Thread nD τ).loc b) := fun c b => W9 m ρ c b

/-- At region 3's exit: its arrays at what the pipeline leaves, every other buffer as entered. -/
def W10 (c : Dev nD) : Valuation τ sig (Elt F) :=
  Pipeline.withArrays spec3 c (W9 m ρ c) fun w => (dat3 (E9 m ρ) c).arrAt w cfg3.N
theorem W10_arr (c : Dev nD) (w : Fin cfg3.W) :
    W10 m ρ c (Proc.devRef .tc (Pipeline.arrRef spec3 w)) = (dat3 (E9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev E10 : (c : Dev nD) → (b : Ref sig .tc) → Buf (Elt F) ((c : Thread nD τ).loc b) := fun c b => W10 m ρ c b
theorem hF3 (c : Dev nD) (w : Fin cfg3.W) : (dat3 (E9 m ρ) c).arrAt w cfg3.N = E10 m ρ c (Pipeline.arrRef spec3 w) :=
  (W10_arr m ρ c w).symm
theorem hrest3 (c : Dev nD) : ∀ b, b ∉ Finset.univ.image (Pipeline.arrRef spec3) → E10 m ρ c b = E9 m ρ c b :=
  fun b hb => W10_of_ne m ρ c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E5 m ρ) c
  | ⟨2, _⟩ => fun c => dat2 (E7 m ρ) c
  | ⟨3, _⟩ => fun c => dat3 (E9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at `W3`, left with them at `W4`. Its
    arrays are split out of the unscoped buffers and put back at their exit contents; the generator register goes into
    the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E3 m ρ c) (E4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Two of its
    input windows read one array: at entry that array's whole share is split in halves between them, at exit the halves
    are joined again. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit : (unscopedBufs (Ix := Unit) (Name := ℕ) (U := UR sig nD τ) (Lvl := ℕ) c (E5 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (E5 m ρ c)) := by
      rw [Pipeline.unscopedBufs_split₀ cfgs 1 winFacts₀1.arr_unscoped c (E5 m ρ c)]
      exact sep_mono (arrBufs_arrays1 (E5 m ρ) c (E5 m ρ c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (E5 m ρ c))
        ⊢ (unscopedBufs (Ix := Unit) (Name := ℕ) (U := UR sig nD τ) (Lvl := ℕ) c (E6 m ρ c) : sProp 𝕄) := by
      rw [Pipeline.unscopedBufs_split₀ cfgs 1 winFacts₀1.arr_unscoped c (E6 m ρ c)]
      refine sep_mono (arrBufs_arrays1 (E5 m ρ) c (E6 m ρ c) _ (hF1 m ρ c)).2 (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its
    arrays are split out of the unscoped buffers and put back at their exit contents; the generator register goes into
    the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (E7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E7 m ρ c) (E8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its
    arrays are split out of the unscoped buffers and put back at their exit contents; the generator register goes into
    the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E9 m ρ c) (E10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's ten items in order. -/
abbrev segs (c : Dev nD) : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]

set_option backward.isDefEq.respectTransparency.types false in
/-- THE RUN: from any memory with zero counters every weakly fair execution of @main terminates, nothing faulting, and
    the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit_dev (pcfgs (F := F)) adm (pdats m ρ) () cellOf_inj emb₁ defs₀ 𝒱₀ L lv m ρ main (segs m ρ)
    (fun c Q => by
      rewrite [main_chain c, Seg.run_eq_chain,
        show (segs m ρ c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Fr

end
-- ==== Proof.Keep.lean ====
/-
  What each host stretch and each region leaves alone: a buffer that no operation of a stretch writes, and that is no
  output array of a region, keeps its contents through it. In particular the five argument arrays reach every region,
  and the return, as launched.
-/
import proofs.«164281_j49383533969583_2_alg».proof.Proof.Run
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg) (c : Dev nD)

theorem keep1 (r : Ref sig .tc) (h : r ∉ hostOps0_W) : W1 m ρ c (Proc.devRef .tc r) = W0 m ρ c (Proc.devRef .tc r) :=
  after_of_writes_sub hostOps0 _ hostOps0_writes h
theorem keep2 (r : Ref sig .tc) (h : r ∉ hostOps0_1_W) : W2 m ρ c (Proc.devRef .tc r) = W1 m ρ c (Proc.devRef .tc r) :=
  after_of_writes_sub hostOps0_1 _ hostOps0_1_writes h
theorem keep3 (r : Ref sig .tc) (h : r ∉ hostOps0_2_W) : W3 m ρ c (Proc.devRef .tc r) = W2 m ρ c (Proc.devRef .tc r) :=
  after_of_writes_sub hostOps0_2 _ hostOps0_2_writes h
theorem keep5 (r : Ref sig .tc) (h : r ∉ hostOps1_W) : W5 m ρ c (Proc.devRef .tc r) = W4 m ρ c (Proc.devRef .tc r) :=
  after_of_writes_sub hostOps1 _ hostOps1_writes h
theorem keep7 (r : Ref sig .tc) (h : r ∉ hostOps2_W) : W7 m ρ c (Proc.devRef .tc r) = W6 m ρ c (Proc.devRef .tc r) :=
  after_of_writes_sub hostOps2 _ hostOps2_writes h
theorem keep9 (r : Ref sig .tc) (h : r ∉ hostOps3_W) : W9 m ρ c (Proc.devRef .tc r) = W8 m ρ c (Proc.devRef .tc r) :=
  after_of_writes_sub hostOps3 _ hostOps3_writes h

/-- Region 0 changes its output array only. -/
theorem keep4 (r : Ref sig .tc) (h : r ≠ main_v8) : W4 m ρ c (Proc.devRef .tc r) = W3 m ρ c (Proc.devRef .tc r) := by
  by_cases hr : ∃ w, Pipeline.arrRef spec0 w = r
  · obtain ⟨w, rfl⟩ := hr
    match w with
    | ⟨0, _⟩ => exact (W4_arr m ρ c 0).trans (((dat0 (E3 m ρ) c).arrAt_in 0 rfl _).trans (A_eq0 (E3 m ρ) c 0))
    | ⟨1, _⟩ => exact (W4_arr m ρ c 1).trans (((dat0 (E3 m ρ) c).arrAt_in 1 rfl _).trans (A_eq0 (E3 m ρ) c 1))
    | ⟨2, _⟩ => exact absurd rfl h
  · exact W4_of_ne m ρ c r fun w e => hr ⟨w, e⟩

/-- Region 1 changes its two output arrays only. -/
theorem keep6 (r : Ref sig .tc) (h0 : r ≠ main_v19_0) (h1 : r ≠ main_v19_1) : W6 m ρ c (Proc.devRef .tc r) = W5 m ρ c (Proc.devRef .tc r) :=
  W6_of_ne m ρ c r h0 h1

/-- Region 2 changes its two output arrays only. -/
theorem keep8 (r : Ref sig .tc) (h0 : r ≠ main_v30_0) (h1 : r ≠ main_v30_1) : W8 m ρ c (Proc.devRef .tc r) = W7 m ρ c (Proc.devRef .tc r) := by
  by_cases hr : ∃ w, Pipeline.arrRef spec2 w = r
  · obtain ⟨w, rfl⟩ := hr
    match w with
    | ⟨0, _⟩ => exact (W8_arr m ρ c 0).trans (((dat2 (E7 m ρ) c).arrAt_in 0 rfl _).trans (A_eq2 (E7 m ρ) c 0))
    | ⟨1, _⟩ => exact (W8_arr m ρ c 1).trans (((dat2 (E7 m ρ) c).arrAt_in 1 rfl _).trans (A_eq2 (E7 m ρ) c 1))
    | ⟨2, _⟩ => exact (W8_arr m ρ c 2).trans (((dat2 (E7 m ρ) c).arrAt_in 2 rfl _).trans (A_eq2 (E7 m ρ) c 2))
    | ⟨3, _⟩ => exact (W8_arr m ρ c 3).trans (((dat2 (E7 m ρ) c).arrAt_in 3 rfl _).trans (A_eq2 (E7 m ρ) c 3))
    | ⟨4, _⟩ => exact absurd rfl h0
    | ⟨5, _⟩ => exact absurd rfl h1
  · exact W8_of_ne m ρ c r fun w e => hr ⟨w, e⟩

/-- Region 3 changes its output array only. -/
theorem keep10 (r : Ref sig .tc) (h : r ≠ main_v32) : W10 m ρ c (Proc.devRef .tc r) = W9 m ρ c (Proc.devRef .tc r) := by
  by_cases hr : ∃ w, Pipeline.arrRef spec3 w = r
  · obtain ⟨w, rfl⟩ := hr
    match w with
    | ⟨0, _⟩ => exact (W10_arr m ρ c 0).trans (((dat3 (E9 m ρ) c).arrAt_in 0 rfl _).trans (A_eq3 (E9 m ρ) c 0))
    | ⟨1, _⟩ => exact (W10_arr m ρ c 1).trans (((dat3 (E9 m ρ) c).arrAt_in 1 rfl _).trans (A_eq3 (E9 m ρ) c 1))
    | ⟨2, _⟩ => exact (W10_arr m ρ c 2).trans (((dat3 (E9 m ρ) c).arrAt_in 2 rfl _).trans (A_eq3 (E9 m ρ) c 2))
    | ⟨3, _⟩ => exact (W10_arr m ρ c 3).trans (((dat3 (E9 m ρ) c).arrAt_in 3 rfl _).trans (A_eq3 (E9 m ρ) c 3))
    | ⟨4, _⟩ => exact (W10_arr m ρ c 4).trans (((dat3 (E9 m ρ) c).arrAt_in 4 rfl _).trans (A_eq3 (E9 m ρ) c 4))
    | ⟨5, _⟩ => exact absurd rfl h
  · exact W10_of_ne m ρ c r fun w e => hr ⟨w, e⟩

/-- A buffer nothing writes before region 0 is as launched when region 0 is entered, -/
theorem at3 (r : Ref sig .tc) (h1 : r ∉ hostOps0_W) (h2 : r ∉ hostOps0_1_W) (h3 : r ∉ hostOps0_2_W) :
    W3 m ρ c (Proc.devRef .tc r) = m ((c : Thread nD τ).loc r) :=
  (keep3 m ρ c r h3).trans ((keep2 m ρ c r h2).trans ((keep1 m ρ c r h1).trans rfl))
/-- when region 1 is entered, -/
theorem at5 (r : Ref sig .tc) (h1 : r ∉ hostOps0_W) (h2 : r ∉ hostOps0_1_W) (h3 : r ∉ hostOps0_2_W) (h4 : r ≠ main_v8) (h5 : r ∉ hostOps1_W) :
    W5 m ρ c (Proc.devRef .tc r) = m ((c : Thread nD τ).loc r) :=
  (keep5 m ρ c r h5).trans ((keep4 m ρ c r h4).trans (at3 m ρ c r h1 h2 h3))
/-- when region 2 is entered, -/
theorem at7 (r : Ref sig .tc) (h1 : r ∉ hostOps0_W) (h2 : r ∉ hostOps0_1_W) (h3 : r ∉ hostOps0_2_W) (h4 : r ≠ main_v8) (h5 : r ∉ hostOps1_W)
    (h6 : r ≠ main_v19_0) (h6' : r ≠ main_v19_1) (h7 : r ∉ hostOps2_W) :
    W7 m ρ c (Proc.devRef .tc r) = m ((c : Thread nD τ).loc r) :=
  (keep7 m ρ c r h7).trans ((keep6 m ρ c r h6 h6').trans (at5 m ρ c r h1 h2 h3 h4 h5))
/-- when region 3 is entered, -/
theorem at9 (r : Ref sig .tc) (h1 : r ∉ hostOps0_W) (h2 : r ∉ hostOps0_1_W) (h3 : r ∉ hostOps0_2_W) (h4 : r ≠ main_v8) (h5 : r ∉ hostOps1_W)
    (h6 : r ≠ main_v19_0) (h6' : r ≠ main_v19_1) (h7 : r ∉ hostOps2_W) (h8 : r ≠ main_v30_0) (h8' : r ≠ main_v30_1) (h9 : r ∉ hostOps3_W) :
    W9 m ρ c (Proc.devRef .tc r) = m ((c : Thread nD τ).loc r) :=
  (keep9 m ρ c r h9).trans ((keep8 m ρ c r h8 h8').trans (at7 m ρ c r h1 h2 h3 h4 h5 h6 h6' h7))
/-- and at the return. -/
theorem at10 (r : Ref sig .tc) (h1 : r ∉ hostOps0_W) (h2 : r ∉ hostOps0_1_W) (h3 : r ∉ hostOps0_2_W) (h4 : r ≠ main_v8) (h5 : r ∉ hostOps1_W)
    (h6 : r ≠ main_v19_0) (h6' : r ≠ main_v19_1) (h7 : r ∉ hostOps2_W) (h8 : r ≠ main_v30_0) (h8' : r ≠ main_v30_1) (h9 : r ∉ hostOps3_W)
    (h10 : r ≠ main_v32) :
    W10 m ρ c (Proc.devRef .tc r) = m ((c : Thread nD τ).loc r) :=
  (keep10 m ρ c r h10).trans (at9 m ρ c r h1 h2 h3 h4 h5 h6 h6' h7 h8 h8' h9)

/-! ## The five argument arrays at the return -/
theorem arg0_10 : W10 m ρ c (Proc.devRef .tc main_arg0) = m ((c : Thread nD τ).loc main_arg0) :=
  at10 m ρ c main_arg0 (by decide) (by decide) (by decide) (by decide) (by decide) (by decide) (by decide) (by decide) (by decide) (by decide) (by decide) (by decide)
theorem arg1_10 : W10 m ρ c (Proc.devRef .tc main_arg1) = m ((c : Thread nD τ).loc main_arg1) :=
  at10 m ρ c main_arg1 (by decide) (by decide) (by decide) (by decide) (by decide) (by decide) (by decide) (by decide) (by decide) (by decide) (by decide) (by decide)
theorem arg2_10 : W10 m ρ c (Proc.devRef .tc main_arg2) = m ((c : Thread nD τ).loc main_arg2) :=
  at10 m ρ c main_arg2 (by decide) (by decide) (by decide) (by decide) (by decide) (by decide) (by decide) (by decide) (by decide) (by decide) (by decide) (by decide)
theorem arg3_10 : W10 m ρ c (Proc.devRef .tc main_arg3) = m ((c : Thread nD τ).loc main_arg3) :=
  at10 m ρ c main_arg3 (by decide) (by decide) (by decide) (by decide) (by decide) (by decide) (by decide) (by decide) (by decide) (by decide) (by decide) (by decide)
theorem arg4_10 : W10 m ρ c (Proc.devRef .tc main_arg4) = m ((c : Thread nD τ).loc main_arg4) :=
  at10 m ρ c main_arg4 (by decide) (by decide) (by decide) (by decide) (by decide) (by decide) (by decide) (by decide) (by decide) (by decide) (by decide) (by decide)

end Cert.KernelIdeal.Fr

end
-- ==== Proof.Spec.lean ====
/-
  What each region leaves in its output arrays, as whole-array functions of the arrays it reads, index by index, on the
  extended reals.

  Rows are handled five thousand at a time, but nothing depends on the tiling: entry (r, j) of an output depends on
  row r of the row-tiled inputs, on entry (r, 0) of the column of inverse square-root degrees, and — for the last
  region — on the whole weight matrix and the bias row.
  * `G0`:  x · d, the rows scaled.
  * `G1a`: (−1)·(a·d) + 0·x + 0·x′, the first recursion step (its two vanishing coefficients are kept as the kernel
    has them); `G1b`: that, scaled by d again.
  * `G2a`: (−2)·(a·d) + 0·x₁ + (−1)·x₀, the second recursion step.
  * `G3`:  max(((x₀·W₀ + x₁·W₁) + x₂·W₂) + b, 0) with W₀, W₁, W₂ the three 64-row slabs of the weight matrix.
-/
import proofs.«164281_j49383533969583_2_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

/-- The float literals the kernels splat, at `Ideal`. -/
abbrev cNeg1 : Ideal .f32 := Scalar.ofBits .f32 0xBF800000#32
abbrev cNeg2 : Ideal .f32 := Scalar.ofBits .f32 0xC0000000#32
abbrev cZero : Ideal .f32 := Scalar.ofBits .f32 0x00000000#32

/-- Entry (r, 0) of a column, for the row of an index of the full matrix. -/
abbrev colAt (i : S100000x64.Idx) : S100000x1.Idx := ix2 (⟨(i 0).val, (i 0).isLt⟩ : Fin 100000) (0 : Fin 1)

def G0 (x : S100000x64.Idx → Elt Ideal .f32) (d : S100000x1.Idx → Elt Ideal .f32) : S100000x64.Idx → Elt Ideal .f32 :=
  fun i => (FloatOps.mulf (F := Ideal) (x i) (d (colAt i)) : Ideal .f32)

def G1a (a : S100000x64.Idx → Elt Ideal .f32) (d : S100000x1.Idx → Elt Ideal .f32)
    (x x' : S100000x64.Idx → Elt Ideal .f32) : S100000x64.Idx → Elt Ideal .f32 :=
  fun i => (FloatOps.addf (F := Ideal) (FloatOps.addf (FloatOps.mulf cNeg1 (FloatOps.mulf (a i) (d (colAt i)))) (FloatOps.mulf cZero (x i)))
    (FloatOps.mulf cZero (x' i)) : Ideal .f32)

def G1b (a : S100000x64.Idx → Elt Ideal .f32) (d : S100000x1.Idx → Elt Ideal .f32)
    (x x' : S100000x64.Idx → Elt Ideal .f32) : S100000x64.Idx → Elt Ideal .f32 :=
  fun i => (FloatOps.mulf (F := Ideal) (G1a a d x x' i) (d (colAt i)) : Ideal .f32)

def G2a (a : S100000x64.Idx → Elt Ideal .f32) (d : S100000x1.Idx → Elt Ideal .f32)
    (x1 x0 : S100000x64.Idx → Elt Ideal .f32) : S100000x64.Idx → Elt Ideal .f32 :=
  fun i => (FloatOps.addf (F := Ideal) (FloatOps.addf (FloatOps.mulf cNeg2 (FloatOps.mulf (a i) (d (colAt i)))) (FloatOps.mulf cZero (x1 i)))
    (FloatOps.mulf cNeg1 (x0 i)) : Ideal .f32)

/-- Row r of x against column j of the slab of the weight matrix that starts at row `o`. -/
def dotSlab (x : S100000x64.Idx → Elt Ideal .f32) (w : S192x64.Idx → Elt Ideal .f32) (o : Nat) (ho : o + 64 ≤ 192)
    (r : Fin 100000) (j : Fin 64) : EReal :=
  ∑ k : Fin 64, (x (ix2 r k) : EReal) * (w (ix2 (⟨o + k.val, by omega⟩ : Fin 192) j) : EReal)

def G3 (x0 x1 x2 : S100000x64.Idx → Elt Ideal .f32) (w : S192x64.Idx → Elt Ideal .f32) (b2 : S1x64.Idx → Elt Ideal .f32) :
    S100000x64.Idx → Elt Ideal .f32 :=
  fun i =>
    let r : Fin 100000 := ⟨(i 0).val, (i 0).isLt⟩
    let j : Fin 64 := ⟨(i 1).val, (i 1).isLt⟩
    (FloatOps.maximumf (F := Ideal)
      (FloatOps.addf (FloatOps.addf (FloatOps.addf (dotSlab x0 w 0 (by omega) r j) (dotSlab x1 w 64 (by omega) r j)) (dotSlab x2 w 128 (by omega) r j))
        (b2 (ix2 (0 : Fin 1) j)))
      cZero : Ideal .f32)

end Cert.KernelIdeal.Spec

end
-- ==== Proof.PayReads.lean ====
/-
  The payloads of the four kernels read at one entry (r, j) of a block of five thousand rows, on the extended reals.

  Every operation of a payload is pointwise except three kinds. A shape cast to the same shape is the identity. A column
  [5000, 1] broadcast to [5000, 64] reads, at (r, j), the column at (r, 0); a row [1, 64] broadcast to [5000, 64] reads the
  row at (0, j). A matrix product into the zero accumulator reads, at (r, j), the sum over k of the left operand at (r, k)
  times the right operand at (k, j); the narrowing of its operands to sixteen bits is the identity on the extended reals.
-/
import proofs.«164281_j49383533969583_2_alg».proof.Proof.Spec
import proofs.«164281_j49383533969583_2_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Spec

open Idealize.ShloMosaic Idealize.ShloMosaic.ValueIdx Cert.KernelIdeal

/-! ## The two non-pointwise layout operations at an index -/

/-- A column [a, 1] broadcast to [a, b] reads, at (p, c), the column at (p, 0). -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- In the product's dimension numbers the left operand's row is the output's row … -/
theorem lhsIdx_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … its column the contraction coordinate … -/
theorem lhsIdx_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- … the right operand's row the contraction coordinate … -/
theorem rhsIdx_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and its column the output's column. -/
theorem rhsIdx_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product of a [5000, 64] left operand and a [64, 64] right operand into the zero accumulator reads, at (r, j), the
    sum over k of left (r, k) times right (k, j). -/
theorem matmulZero_at {φ₁ φ₂ : FTy} (lhs : FVec Ideal S5000x64 φ₁) (rhs : FVec Ideal S64x64 φ₂) (r : Fin 5000) (j : Fin 64) :
    FloatOps.matmul (F := Ideal) dot_S5000x64_S64x64_S5000x64_1_0_0_1_n_n none lhs rhs (constant (F := Ideal) S5000x64 .f32 0x00000000#32) (ix2 r j)
      = ∑ k : Fin 64, lhs (ix2 r k) * rhs (ix2 k j) := by
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j)
      ((contrEquiv1 dot_S5000x64_S64x64_S5000x64_1_0_0_1_n_n 64 rfl rfl).symm k) = ix2 r k := funext fun a => Fin.ext (by
    match a with
    | ⟨0, _⟩ => exact lhsIdx_row _ _
    | ⟨1, _⟩ => exact (lhsIdx_col _ _).trans hk)
  have er : dot_S5000x64_S64x64_S5000x64_1_0_0_1_n_n.rhsIdx (ix2 r j)
      ((contrEquiv1 dot_S5000x64_S64x64_S5000x64_1_0_0_1_n_n 64 rfl rfl).symm k) = ix2 k j := funext fun a => Fin.ext (by
    match a with
    | ⟨0, _⟩ => exact (rhsIdx_row _ _).trans hk
    | ⟨1, _⟩ => exact rhsIdx_col _ _)
  rw [el, er]

/-! ## The payloads -/

variable (r : Fin 5000) (j : Fin 64)

/-- The scaling kernel: the row entry times the row's scale. -/
theorem pay0_at (v0 : Vec Ideal S5000x64 .f32) (v1 : Vec Ideal S5000x1 .f32) :
    Gen.k0_pay1 (F := Ideal) v0 v1 (ix2 r j)
      = FloatOps.mulf (F := Ideal) (v0 (ix2 r j)) (v1 (ix2 r (0 : Fin 1))) := by
  unfold Gen.k0_pay1
  simp only [shapeCast_self]
  show FloatOps.mulf (F := Ideal) (v0 (ix2 r j)) (broadcastTo S5000x64 v1 Gen.broadcasts_S5000x1_S5000x64 (ix2 r j)) = _
  rw [colBroadcast_apply]

/-- The scale column a recursion kernel reads is the column it loaded. -/
theorem k1_pay1_eq (v0 : Vec Ideal S5000x1 .f32) : Gen.k1_pay1 (F := Ideal) v0 = v0 := by
  unfold Gen.k1_pay1
  exact shapeCast_self v0 _

theorem k2_pay1_eq (v0 : Vec Ideal S5000x1 .f32) : Gen.k2_pay1 (F := Ideal) v0 = v0 := by
  unfold Gen.k2_pay1
  exact shapeCast_self v0 _

/-- The first recursion step. -/
theorem pay1a_at (v0 : Vec Ideal S5000x1 .f32) (v2 v8 v12 : Vec Ideal S5000x64 .f32) :
    Gen.k1_pay2 (F := Ideal) v0 v2 v8 v12 (ix2 r j)
      = FloatOps.addf (F := Ideal)
          (FloatOps.addf (FloatOps.mulf cNeg1 (FloatOps.mulf (v2 (ix2 r j)) (v0 (ix2 r (0 : Fin 1))))) (FloatOps.mulf cZero (v8 (ix2 r j))))
          (FloatOps.mulf cZero (v12 (ix2 r j))) := by
  unfold Gen.k1_pay2
  simp only [shapeCast_self, k1_pay1_eq]
  show FloatOps.addf (F := Ideal)
      (FloatOps.addf (FloatOps.mulf cNeg1 (FloatOps.mulf (v2 (ix2 r j)) (broadcastTo S5000x64 v0 Gen.broadcasts_S5000x1_S5000x64 (ix2 r j))))
        (FloatOps.mulf cZero (v8 (ix2 r j))))
      (FloatOps.mulf cZero (v12 (ix2 r j))) = _
  rw [colBroadcast_apply]

/-- The first recursion step scaled again. -/
theorem pay1b_at (v0 : Vec Ideal S5000x1 .f32) (v2 v8 v12 : Vec Ideal S5000x64 .f32) :
    Gen.k1_pay3 (F := Ideal) v0 v2 v8 v12 (ix2 r j)
      = FloatOps.mulf (F := Ideal) (Gen.k1_pay2 (F := Ideal) v0 v2 v8 v12 (ix2 r j)) (v0 (ix2 r (0 : Fin 1))) := by
  unfold Gen.k1_pay3
  simp only [k1_pay1_eq]
  show FloatOps.mulf (F := Ideal) (Gen.k1_pay2 (F := Ideal) v0 v2 v8 v12 (ix2 r j))
      (broadcastTo S5000x64 v0 Gen.broadcasts_S5000x1_S5000x64 (ix2 r j)) = _
  rw [colBroadcast_apply]

/-- The second recursion step. -/
theorem pay2a_at (v0 : Vec Ideal S5000x1 .f32) (v2 v8 v13 : Vec Ideal S5000x64 .f32) :
    Gen.k2_pay2 (F := Ideal) v0 v2 v8 v13 (ix2 r j)
      = FloatOps.addf (F := Ideal)
          (FloatOps.addf (FloatOps.mulf cNeg2 (FloatOps.mulf (v2 (ix2 r j)) (v0 (ix2 r (0 : Fin 1))))) (FloatOps.mulf cZero (v8 (ix2 r j))))
          (FloatOps.mulf cNeg1 (v13 (ix2 r j))) := by
  unfold Gen.k2_pay2
  simp only [shapeCast_self, k2_pay1_eq]
  show FloatOps.addf (F := Ideal)
      (FloatOps.addf (FloatOps.mulf cNeg2 (FloatOps.mulf (v2 (ix2 r j)) (broadcastTo S5000x64 v0 Gen.broadcasts_S5000x1_S5000x64 (ix2 r j))))
        (FloatOps.mulf cZero (v8 (ix2 r j))))
      (FloatOps.mulf cNeg1 (v13 (ix2 r j))) = _
  rw [colBroadcast_apply]

/-- The last kernel: the three products summed, the bias row added, the result clamped below at zero. -/
theorem pay3_at (v0 v1 v2 : Vec Ideal S64x64 .f32) (v3 v7 v13 : Vec Ideal S5000x64 .f32) (v19 : Vec Ideal S1x64 .f32) :
    Gen.k3_pay1 (F := Ideal) v0 v1 v2 v3 v7 v13 v19 (ix2 r j)
      = FloatOps.maximumf (F := Ideal)
          (FloatOps.addf
            (FloatOps.addf
              (FloatOps.addf (∑ k : Fin 64, v3 (ix2 r k) * v0 (ix2 k j)) (∑ k : Fin 64, v7 (ix2 r k) * v1 (ix2 k j)))
              (∑ k : Fin 64, v13 (ix2 r k) * v2 (ix2 k j)))
            (v19 (ix2 (0 : Fin 1) j)))
          cZero := by
  unfold Gen.k3_pay1
  simp only [shapeCast_self]
  show FloatOps.maximumf (F := Ideal)
      (FloatOps.addf
        (FloatOps.addf
          (FloatOps.addf
            (FloatOps.matmul (F := Ideal) dot_S5000x64_S64x64_S5000x64_1_0_0_1_n_n none
              (truncf .bf16 v3 Gen.bitsLt_bf16_f32 : FVec Ideal S5000x64 .bf16) (truncf .bf16 v0 Gen.bitsLt_bf16_f32 : FVec Ideal S64x64 .bf16)
              (constant (F := Ideal) S5000x64 .f32 0x00000000#32) (ix2 r j))
            (FloatOps.matmul (F := Ideal) dot_S5000x64_S64x64_S5000x64_1_0_0_1_n_n none
              (truncf .bf16 v7 Gen.bitsLt_bf16_f32 : FVec Ideal S5000x64 .bf16) (truncf .bf16 v1 Gen.bitsLt_bf16_f32 : FVec Ideal S64x64 .bf16)
              (constant (F := Ideal) S5000x64 .f32 0x00000000#32) (ix2 r j)))
          (FloatOps.matmul (F := Ideal) dot_S5000x64_S64x64_S5000x64_1_0_0_1_n_n none
            (truncf .bf16 v13 Gen.bitsLt_bf16_f32 : FVec Ideal S5000x64 .bf16) (truncf .bf16 v2 Gen.bitsLt_bf16_f32 : FVec Ideal S64x64 .bf16)
            (constant (F := Ideal) S5000x64 .f32 0x00000000#32) (ix2 r j)))
        (broadcastTo S5000x64 v19 Gen.broadcasts_S1x64_S5000x64 (ix2 r j)))
      cZero = _
  rw [matmulZero_at, matmulZero_at, matmulZero_at, broadcastTo_1b_ab_apply]
  rfl

end Cert.KernelIdeal.Spec

end
-- ==== Proof.Val0.lean ====
/-
  Region 0's output arrays after the run, entry by entry: entry (r, j) is the feature entry (r, j) times the column entry (r, 0).
  Point t writes rows 5000·t … 5000·t + 4999 of each output; the twenty points cover the arrays.
-/
import proofs.«164281_j49383533969583_2_alg».proof.Proof.Body0
import proofs.«164281_j49383533969583_2_alg».proof.Proof.Spec
import proofs.«164281_j49383533969583_2_alg».proof.Proof.PayReads
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz0 : (![0, 0] : Fin 2 → Nat) = fun _ => 0 := funext fun a => by fin_cases a <;> rfl

/-- All windows move together down the rows; the column window's second block index stays 0. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 19 ∧ win0_2.index t (1 : Fin 2) = 0 :=
  (by decide +kernel : ∀ t : Fin grid0.N, _)

theorem idx_onto0_2 : ∀ q0 : Fin 20, ∃ t : Fin cfg0.N, win0_2.index t = ![q0.val, 0] :=
  (by decide +kernel : ∀ q0 : Fin 20, ∃ t : Fin grid0.N, win0_2.index t = ![q0.val, 0])

/-- What point `t` writes back through output window 2 is block `t` of `G0` of the arrays as the region finds them. -/
theorem flushed0_2 (c : Dev nD) (t : Fin cfg0.N) :
    (dat0 (F := Ideal) V c).flushed 2 t
      = ((cfg0.win 2).blk t).view.read (Elt Ideal) (Spec.G0 (V c main_arg0) (V c main_v7)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S5000x1) hz0]
  obtain ⟨e0, e1, e2, e3, e4, e5⟩ := idx_facts0 t
  funext y
  obtain ⟨r, j, rfl⟩ : ∃ (r : Fin 5000) (j : Fin 64), y = ix2 r j := ⟨y 0, y 1, eq_ix2 y⟩
  refine (Spec.pay0_at r j (iblk0 V c 0 t) (iblk0 V c 1 t)).trans ?_
  have h0 : ((cfg0.win 0).blk t).view.emb (ix2 r j) = ((cfg0.win 2).blk t).view.emb (ix2 r j) := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 64 + 1 * j.val = win0_2.index t (1 : Fin 2) * 64 + 1 * j.val; omega
  have hc : ((cfg0.win 1).blk t).view.emb (ix2 r (0 : Fin 1)) = Spec.colAt (((cfg0.win 2).blk t).view.emb (ix2 r j)) := by
    funext a; apply Fin.ext
    match a with
    | ⟨0, _⟩ => show win0_1.index t (0 : Fin 2) * 5000 + 1 * r.val = win0_2.index t (0 : Fin 2) * 5000 + 1 * r.val; omega
    | ⟨1, _⟩ => show win0_1.index t (1 : Fin 2) * 1 + 1 * 0 = 0; omega
  show (FloatOps.mulf (F := Ideal) (V c main_arg0 (((cfg0.win 0).blk t).view.emb (ix2 r j))) (V c main_v7 (((cfg0.win 1).blk t).view.emb (ix2 r (0 : Fin 1)))) : Ideal .f32) = (FloatOps.mulf (F := Ideal) (V c main_arg0 (((cfg0.win 2).blk t).view.emb (ix2 r j))) (V c main_v7 (Spec.colAt (((cfg0.win 2).blk t).view.emb (ix2 r j)))) : Ideal .f32)
  rw [h0, hc]

theorem mem_blk0_2 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v8).slice (win0_2.rect t)).set ↔ _
  rw [View.set_slice_whole, Rect.mem_set_unit]
  exact Iff.rfl

theorem cover0_2' (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0_2 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The scaled rows, whole. -/
theorem final0_2 (c : Dev nD) : (dat0 (F := Ideal) V c).arrAt 2 cfg0.N = Spec.G0 (V c main_arg0) (V c main_v7) :=
  (dat0 (F := Ideal) V c).arrAt_eq_of_cover 2 (Spec.G0 (V c main_arg0) (V c main_v7)) (fun t _ => flushed0_2 V c t) cover0_2'

end Cert.KernelIdeal.Val

end
-- ==== Proof.Val1.lean ====
/-
  Region 1's output arrays after the run, entry by entry: the first recursion step (−1)·(a·d) + 0·x + 0·x′ and that value scaled by d again.
  Point t writes rows 5000·t … 5000·t + 4999 of each output; the twenty points cover the arrays.
-/
import proofs.«164281_j49383533969583_2_alg».proof.Proof.Body1
import proofs.«164281_j49383533969583_2_alg».proof.Proof.Spec
import proofs.«164281_j49383533969583_2_alg».proof.Proof.PayReads
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz1 : (![0, 0] : Fin 2 → Nat) = fun _ => 0 := funext fun a => by fin_cases a <;> rfl

/-- The second output's payload at an entry, in full: the first output's value there, times the column entry. -/
theorem _root_.Cert.KernelIdeal.Spec.pay1b'_at (r : Fin 5000) (j : Fin 64) (v0 : Vec Ideal S5000x1 .f32) (v2 v8 v12 : Vec Ideal S5000x64 .f32) :
    k1_pay3 (F := Ideal) v0 v2 v8 v12 (ix2 r j) = (FloatOps.mulf (F := Ideal) (FloatOps.addf (F := Ideal) (FloatOps.addf (FloatOps.mulf Spec.cNeg1 (FloatOps.mulf (v2 (ix2 r j)) (v0 (ix2 r (0 : Fin 1))))) (FloatOps.mulf Spec.cZero (v8 (ix2 r j)))) (FloatOps.mulf Spec.cZero (v12 (ix2 r j)))) (v0 (ix2 r (0 : Fin 1))) : Ideal .f32) :=
  (Spec.pay1b_at r j v0 v2 v8 v12).trans (congrArg (fun z => (FloatOps.mulf (F := Ideal) z (v0 (ix2 r (0 : Fin 1))) : Ideal .f32)) (Spec.pay1a_at r j v0 v2 v8 v12))

/-- All windows move together down the rows; the column window's second block index stays 0. -/
theorem idx_facts1 : ∀ t : Fin cfg1.N, win1_0.index t (0 : Fin 2) = win1_4.index t (0 : Fin 2)
    ∧ win1_0.index t (1 : Fin 2) = win1_4.index t (1 : Fin 2)
    ∧ win1_2.index t (0 : Fin 2) = win1_4.index t (0 : Fin 2)
    ∧ win1_2.index t (1 : Fin 2) = win1_4.index t (1 : Fin 2)
    ∧ win1_3.index t (0 : Fin 2) = win1_4.index t (0 : Fin 2)
    ∧ win1_3.index t (1 : Fin 2) = win1_4.index t (1 : Fin 2)
    ∧ win1_1.index t (0 : Fin 2) = win1_4.index t (0 : Fin 2)
    ∧ win1_1.index t (1 : Fin 2) = 0
    ∧ win1_5.index t (0 : Fin 2) = win1_4.index t (0 : Fin 2)
    ∧ win1_5.index t (1 : Fin 2) = win1_4.index t (1 : Fin 2)
    ∧ win1_4.index t (0 : Fin 2) ≤ 19 ∧ win1_4.index t (1 : Fin 2) = 0 :=
  (by decide +kernel : ∀ t : Fin grid1.N, _)

theorem idx_onto1_4 : ∀ q0 : Fin 20, ∃ t : Fin cfg1.N, win1_4.index t = ![q0.val, 0] :=
  (by decide +kernel : ∀ q0 : Fin 20, ∃ t : Fin grid1.N, win1_4.index t = ![q0.val, 0])
theorem idx_onto1_5 : ∀ q0 : Fin 20, ∃ t : Fin cfg1.N, win1_5.index t = ![q0.val, 0] :=
  (by decide +kernel : ∀ q0 : Fin 20, ∃ t : Fin grid1.N, win1_5.index t = ![q0.val, 0])

/-- What point `t` writes back through output window 4 is block `t` of `G1a` of the arrays as the region finds them. -/
theorem flushed1_4 (c : Dev nD) (t : Fin cfg1.N) :
    (dat1 (F := Ideal) V c).flushed 4 t
      = ((cfg1.win 4).blk t).view.read (Elt Ideal) (Spec.G1a (V c main_v18) (V c main_v7) (V c main_arg0) (V c main_arg0)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S5000x1) hz1]
  obtain ⟨e0, e1, e2, e3, e4, e5, e6, e7, e8, e9, e10, e11⟩ := idx_facts1 t
  funext y
  obtain ⟨r, j, rfl⟩ : ∃ (r : Fin 5000) (j : Fin 64), y = ix2 r j := ⟨y 0, y 1, eq_ix2 y⟩
  refine (Spec.pay1a_at r j (iblk1 V c 1 t) (iblk1 V c 0 t) (iblk1 V c 2 t) (iblk1 V c 3 t)).trans ?_
  have h0 : ((cfg1.win 0).blk t).view.emb (ix2 r j) = ((cfg1.win 4).blk t).view.emb (ix2 r j) := by
    funext a; apply Fin.ext
    match a with
    | ⟨0, _⟩ => show win1_0.index t (0 : Fin 2) * 5000 + 1 * r.val = win1_4.index t (0 : Fin 2) * 5000 + 1 * r.val; omega
    | ⟨1, _⟩ => show win1_0.index t (1 : Fin 2) * 64 + 1 * j.val = win1_4.index t (1 : Fin 2) * 64 + 1 * j.val; omega
  have h2 : ((cfg1.win 2).blk t).view.emb (ix2 r j) = ((cfg1.win 4).blk t).view.emb (ix2 r j) := by
    funext a; apply Fin.ext
    match a with
    | ⟨0, _⟩ => show win1_2.index t (0 : Fin 2) * 5000 + 1 * r.val = win1_4.index t (0 : Fin 2) * 5000 + 1 * r.val; omega
    | ⟨1, _⟩ => show win1_2.index t (1 : Fin 2) * 64 + 1 * j.val = win1_4.index t (1 : Fin 2) * 64 + 1 * j.val; omega
  have h3 : ((cfg1.win 3).blk t).view.emb (ix2 r j) = ((cfg1.win 4).blk t).view.emb (ix2 r j) := by
    funext a; apply Fin.ext
    match a with
    | ⟨0, _⟩ => show win1_3.index t (0 : Fin 2) * 5000 + 1 * r.val = win1_4.index t (0 : Fin 2) * 5000 + 1 * r.val; omega
    | ⟨1, _⟩ => show win1_3.index t (1 : Fin 2) * 64 + 1 * j.val = win1_4.index t (1 : Fin 2) * 64 + 1 * j.val; omega
  have hc : ((cfg1.win 1).blk t).view.emb (ix2 r (0 : Fin 1)) = Spec.colAt (((cfg1.win 4).blk t).view.emb (ix2 r j)) := by
    funext a; apply Fin.ext
    match a with
    | ⟨0, _⟩ => show win1_1.index t (0 : Fin 2) * 5000 + 1 * r.val = win1_4.index t (0 : Fin 2) * 5000 + 1 * r.val; omega
    | ⟨1, _⟩ => show win1_1.index t (1 : Fin 2) * 1 + 1 * 0 = 0; omega
  show (FloatOps.addf (F := Ideal) (FloatOps.addf (F := Ideal) (FloatOps.mulf (F := Ideal) Spec.cNeg1 (FloatOps.mulf (F := Ideal) (V c main_v18 (((cfg1.win 0).blk t).view.emb (ix2 r j))) (V c main_v7 (((cfg1.win 1).blk t).view.emb (ix2 r (0 : Fin 1)))) : Ideal .f32) : Ideal .f32) (FloatOps.mulf (F := Ideal) Spec.cZero (V c main_arg0 (((cfg1.win 2).blk t).view.emb (ix2 r j))) : Ideal .f32) : Ideal .f32) (FloatOps.mulf (F := Ideal) Spec.cZero (V c main_arg0 (((cfg1.win 3).blk t).view.emb (ix2 r j))) : Ideal .f32) : Ideal .f32) = (FloatOps.addf (F := Ideal) (FloatOps.addf (F := Ideal) (FloatOps.mulf (F := Ideal) Spec.cNeg1 (FloatOps.mulf (F := Ideal) (V c main_v18 (((cfg1.win 4).blk t).view.emb (ix2 r j))) (V c main_v7 (Spec.colAt (((cfg1.win 4).blk t).view.emb (ix2 r j)))) : Ideal .f32) : Ideal .f32) (FloatOps.mulf (F := Ideal) Spec.cZero (V c main_arg0 (((cfg1.win 4).blk t).view.emb (ix2 r j))) : Ideal .f32) : Ideal .f32) (FloatOps.mulf (F := Ideal) Spec.cZero (V c main_arg0 (((cfg1.win 4).blk t).view.emb (ix2 r j))) : Ideal .f32) : Ideal .f32)
  rw [h0, h2, h3, hc]

theorem mem_blk1_4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v19_0).slice (win1_4.rect t)).set ↔ _
  rw [View.set_slice_whole, Rect.mem_set_unit]
  exact Iff.rfl

theorem cover1_4' (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1_4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The first recursion step, whole. -/
theorem final1_4 (c : Dev nD) : (dat1 (F := Ideal) V c).arrAt 4 cfg1.N = Spec.G1a (V c main_v18) (V c main_v7) (V c main_arg0) (V c main_arg0) :=
  (dat1 (F := Ideal) V c).arrAt_eq_of_cover 4 (Spec.G1a (V c main_v18) (V c main_v7) (V c main_arg0) (V c main_arg0)) (fun t _ => flushed1_4 V c t) cover1_4'

/-- What point `t` writes back through output window 5 is block `t` of `G1b` of the arrays as the region finds them. -/
theorem flushed1_5 (c : Dev nD) (t : Fin cfg1.N) :
    (dat1 (F := Ideal) V c).flushed 5 t
      = ((cfg1.win 5).blk t).view.read (Elt Ideal) (Spec.G1b (V c main_v18) (V c main_v7) (V c main_arg0) (V c main_arg0)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S5000x1) hz1]
  obtain ⟨e0, e1, e2, e3, e4, e5, e6, e7, e8, e9, e10, e11⟩ := idx_facts1 t
  funext y
  obtain ⟨r, j, rfl⟩ : ∃ (r : Fin 5000) (j : Fin 64), y = ix2 r j := ⟨y 0, y 1, eq_ix2 y⟩
  refine (Spec.pay1b'_at r j (iblk1 V c 1 t) (iblk1 V c 0 t) (iblk1 V c 2 t) (iblk1 V c 3 t)).trans ?_
  have h0 : ((cfg1.win 0).blk t).view.emb (ix2 r j) = ((cfg1.win 5).blk t).view.emb (ix2 r j) := by
    funext a; apply Fin.ext
    match a with
    | ⟨0, _⟩ => show win1_0.index t (0 : Fin 2) * 5000 + 1 * r.val = win1_5.index t (0 : Fin 2) * 5000 + 1 * r.val; omega
    | ⟨1, _⟩ => show win1_0.index t (1 : Fin 2) * 64 + 1 * j.val = win1_5.index t (1 : Fin 2) * 64 + 1 * j.val; omega
  have h2 : ((cfg1.win 2).blk t).view.emb (ix2 r j) = ((cfg1.win 5).blk t).view.emb (ix2 r j) := by
    funext a; apply Fin.ext
    match a with
    | ⟨0, _⟩ => show win1_2.index t (0 : Fin 2) * 5000 + 1 * r.val = win1_5.index t (0 : Fin 2) * 5000 + 1 * r.val; omega
    | ⟨1, _⟩ => show win1_2.index t (1 : Fin 2) * 64 + 1 * j.val = win1_5.index t (1 : Fin 2) * 64 + 1 * j.val; omega
  have h3 : ((cfg1.win 3).blk t).view.emb (ix2 r j) = ((cfg1.win 5).blk t).view.emb (ix2 r j) := by
    funext a; apply Fin.ext
    match a with
    | ⟨0, _⟩ => show win1_3.index t (0 : Fin 2) * 5000 + 1 * r.val = win1_5.index t (0 : Fin 2) * 5000 + 1 * r.val; omega
    | ⟨1, _⟩ => show win1_3.index t (1 : Fin 2) * 64 + 1 * j.val = win1_5.index t (1 : Fin 2) * 64 + 1 * j.val; omega
  have hc : ((cfg1.win 1).blk t).view.emb (ix2 r (0 : Fin 1)) = Spec.colAt (((cfg1.win 5).blk t).view.emb (ix2 r j)) := by
    funext a; apply Fin.ext
    match a with
    | ⟨0, _⟩ => show win1_1.index t (0 : Fin 2) * 5000 + 1 * r.val = win1_5.index t (0 : Fin 2) * 5000 + 1 * r.val; omega
    | ⟨1, _⟩ => show win1_1.index t (1 : Fin 2) * 1 + 1 * 0 = 0; omega
  show (FloatOps.mulf (F := Ideal) (FloatOps.addf (F := Ideal) (FloatOps.addf (F := Ideal) (FloatOps.mulf (F := Ideal) Spec.cNeg1 (FloatOps.mulf (F := Ideal) (V c main_v18 (((cfg1.win 0).blk t).view.emb (ix2 r j))) (V c main_v7 (((cfg1.win 1).blk t).view.emb (ix2 r (0 : Fin 1)))) : Ideal .f32) : Ideal .f32) (FloatOps.mulf (F := Ideal) Spec.cZero (V c main_arg0 (((cfg1.win 2).blk t).view.emb (ix2 r j))) : Ideal .f32) : Ideal .f32) (FloatOps.mulf (F := Ideal) Spec.cZero (V c main_arg0 (((cfg1.win 3).blk t).view.emb (ix2 r j))) : Ideal .f32) : Ideal .f32) (V c main_v7 (((cfg1.win 1).blk t).view.emb (ix2 r (0 : Fin 1)))) : Ideal .f32) = (FloatOps.mulf (F := Ideal) (FloatOps.addf (F := Ideal) (FloatOps.addf (F := Ideal) (FloatOps.mulf (F := Ideal) Spec.cNeg1 (FloatOps.mulf (F := Ideal) (V c main_v18 (((cfg1.win 5).blk t).view.emb (ix2 r j))) (V c main_v7 (Spec.colAt (((cfg1.win 5).blk t).view.emb (ix2 r j)))) : Ideal .f32) : Ideal .f32) (FloatOps.mulf (F := Ideal) Spec.cZero (V c main_arg0 (((cfg1.win 5).blk t).view.emb (ix2 r j))) : Ideal .f32) : Ideal .f32) (FloatOps.mulf (F := Ideal) Spec.cZero (V c main_arg0 (((cfg1.win 5).blk t).view.emb (ix2 r j))) : Ideal .f32) : Ideal .f32) (V c main_v7 (Spec.colAt (((cfg1.win 5).blk t).view.emb (ix2 r j)))) : Ideal .f32)
  rw [h0, h2, h3, hc]

theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v19_1).slice (win1_5.rect t)).set ↔ _
  rw [View.set_slice_whole, Rect.mem_set_unit]
  exact Iff.rfl

theorem cover1_5' (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1_5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The first recursion step scaled again, whole. -/
theorem final1_5 (c : Dev nD) : (dat1 (F := Ideal) V c).arrAt 5 cfg1.N = Spec.G1b (V c main_v18) (V c main_v7) (V c main_arg0) (V c main_arg0) :=
  (dat1 (F := Ideal) V c).arrAt_eq_of_cover 5 (Spec.G1b (V c main_v18) (V c main_v7) (V c main_arg0) (V c main_arg0)) (fun t _ => flushed1_5 V c t) cover1_5'

end Cert.KernelIdeal.Val

end
-- ==== Proof.Val2.lean ====
/-
  Region 2's output arrays after the run, entry by entry: the second recursion step (−2)·(a·d) + 0·x₁ + (−1)·x₀.
  Point t writes rows 5000·t … 5000·t + 4999 of each output; the twenty points cover the arrays.
-/
import proofs.«164281_j49383533969583_2_alg».proof.Proof.Body2
import proofs.«164281_j49383533969583_2_alg».proof.Proof.Spec
import proofs.«164281_j49383533969583_2_alg».proof.Proof.PayReads
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz2 : (![0, 0] : Fin 2 → Nat) = fun _ => 0 := funext fun a => by fin_cases a <;> rfl

/-- All windows move together down the rows; the column window's second block index stays 0. -/
theorem idx_facts2 : ∀ t : Fin cfg2.N, win2_0.index t (0 : Fin 2) = win2_4.index t (0 : Fin 2)
    ∧ win2_0.index t (1 : Fin 2) = win2_4.index t (1 : Fin 2)
    ∧ win2_2.index t (0 : Fin 2) = win2_4.index t (0 : Fin 2)
    ∧ win2_2.index t (1 : Fin 2) = win2_4.index t (1 : Fin 2)
    ∧ win2_3.index t (0 : Fin 2) = win2_4.index t (0 : Fin 2)
    ∧ win2_3.index t (1 : Fin 2) = win2_4.index t (1 : Fin 2)
    ∧ win2_1.index t (0 : Fin 2) = win2_4.index t (0 : Fin 2)
    ∧ win2_1.index t (1 : Fin 2) = 0
    ∧ win2_4.index t (0 : Fin 2) ≤ 19 ∧ win2_4.index t (1 : Fin 2) = 0 :=
  (by decide +kernel : ∀ t : Fin grid2.N, _)

theorem idx_onto2_4 : ∀ q0 : Fin 20, ∃ t : Fin cfg2.N, win2_4.index t = ![q0.val, 0] :=
  (by decide +kernel : ∀ q0 : Fin 20, ∃ t : Fin grid2.N, win2_4.index t = ![q0.val, 0])

/-- What point `t` writes back through output window 4 is block `t` of `G2a` of the arrays as the region finds them. -/
theorem flushed2_4 (c : Dev nD) (t : Fin cfg2.N) :
    (dat2 (F := Ideal) V c).flushed 4 t
      = ((cfg2.win 4).blk t).view.read (Elt Ideal) (Spec.G2a (V c main_v29) (V c main_v7) (V c main_v19_0) (V c main_arg0)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S5000x1) hz2]
  obtain ⟨e0, e1, e2, e3, e4, e5, e6, e7, e8, e9⟩ := idx_facts2 t
  funext y
  obtain ⟨r, j, rfl⟩ : ∃ (r : Fin 5000) (j : Fin 64), y = ix2 r j := ⟨y 0, y 1, eq_ix2 y⟩
  refine (Spec.pay2a_at r j (iblk2 V c 1 t) (iblk2 V c 0 t) (iblk2 V c 2 t) (iblk2 V c 3 t)).trans ?_
  have h0 : ((cfg2.win 0).blk t).view.emb (ix2 r j) = ((cfg2.win 4).blk t).view.emb (ix2 r j) := by
    funext a; apply Fin.ext
    match a with
    | ⟨0, _⟩ => show win2_0.index t (0 : Fin 2) * 5000 + 1 * r.val = win2_4.index t (0 : Fin 2) * 5000 + 1 * r.val; omega
    | ⟨1, _⟩ => show win2_0.index t (1 : Fin 2) * 64 + 1 * j.val = win2_4.index t (1 : Fin 2) * 64 + 1 * j.val; omega
  have h2 : ((cfg2.win 2).blk t).view.emb (ix2 r j) = ((cfg2.win 4).blk t).view.emb (ix2 r j) := by
    funext a; apply Fin.ext
    match a with
    | ⟨0, _⟩ => show win2_2.index t (0 : Fin 2) * 5000 + 1 * r.val = win2_4.index t (0 : Fin 2) * 5000 + 1 * r.val; omega
    | ⟨1, _⟩ => show win2_2.index t (1 : Fin 2) * 64 + 1 * j.val = win2_4.index t (1 : Fin 2) * 64 + 1 * j.val; omega
  have h3 : ((cfg2.win 3).blk t).view.emb (ix2 r j) = ((cfg2.win 4).blk t).view.emb (ix2 r j) := by
    funext a; apply Fin.ext
    match a with
    | ⟨0, _⟩ => show win2_3.index t (0 : Fin 2) * 5000 + 1 * r.val = win2_4.index t (0 : Fin 2) * 5000 + 1 * r.val; omega
    | ⟨1, _⟩ => show win2_3.index t (1 : Fin 2) * 64 + 1 * j.val = win2_4.index t (1 : Fin 2) * 64 + 1 * j.val; omega
  have hc : ((cfg2.win 1).blk t).view.emb (ix2 r (0 : Fin 1)) = Spec.colAt (((cfg2.win 4).blk t).view.emb (ix2 r j)) := by
    funext a; apply Fin.ext
    match a with
    | ⟨0, _⟩ => show win2_1.index t (0 : Fin 2) * 5000 + 1 * r.val = win2_4.index t (0 : Fin 2) * 5000 + 1 * r.val; omega
    | ⟨1, _⟩ => show win2_1.index t (1 : Fin 2) * 1 + 1 * 0 = 0; omega
  show (FloatOps.addf (F := Ideal) (FloatOps.addf (F := Ideal) (FloatOps.mulf (F := Ideal) Spec.cNeg2 (FloatOps.mulf (F := Ideal) (V c main_v29 (((cfg2.win 0).blk t).view.emb (ix2 r j))) (V c main_v7 (((cfg2.win 1).blk t).view.emb (ix2 r (0 : Fin 1)))) : Ideal .f32) : Ideal .f32) (FloatOps.mulf (F := Ideal) Spec.cZero (V c main_v19_0 (((cfg2.win 2).blk t).view.emb (ix2 r j))) : Ideal .f32) : Ideal .f32) (FloatOps.mulf (F := Ideal) Spec.cNeg1 (V c main_arg0 (((cfg2.win 3).blk t).view.emb (ix2 r j))) : Ideal .f32) : Ideal .f32) = (FloatOps.addf (F := Ideal) (FloatOps.addf (F := Ideal) (FloatOps.mulf (F := Ideal) Spec.cNeg2 (FloatOps.mulf (F := Ideal) (V c main_v29 (((cfg2.win 4).blk t).view.emb (ix2 r j))) (V c main_v7 (Spec.colAt (((cfg2.win 4).blk t).view.emb (ix2 r j)))) : Ideal .f32) : Ideal .f32) (FloatOps.mulf (F := Ideal) Spec.cZero (V c main_v19_0 (((cfg2.win 4).blk t).view.emb (ix2 r j))) : Ideal .f32) : Ideal .f32) (FloatOps.mulf (F := Ideal) Spec.cNeg1 (V c main_arg0 (((cfg2.win 4).blk t).view.emb (ix2 r j))) : Ideal .f32) : Ideal .f32)
  rw [h0, h2, h3, hc]

theorem mem_blk2_4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v30_0).slice (win2_4.rect t)).set ↔ _
  rw [View.set_slice_whole, Rect.mem_set_unit]
  exact Iff.rfl

theorem cover2_4' (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto2_4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The second recursion step, whole. -/
theorem final2_4 (c : Dev nD) : (dat2 (F := Ideal) V c).arrAt 4 cfg2.N = Spec.G2a (V c main_v29) (V c main_v7) (V c main_v19_0) (V c main_arg0) :=
  (dat2 (F := Ideal) V c).arrAt_eq_of_cover 4 (Spec.G2a (V c main_v29) (V c main_v7) (V c main_v19_0) (V c main_arg0)) (fun t _ => flushed2_4 V c t) cover2_4'

end Cert.KernelIdeal.Val

end
-- ==== Proof.Val3.lean ====
/-
  Region 3's output array after the run: entry (r, j) is the clamp at zero of row r of the three feature arrays
  against column j of the three 64-row slabs of the weight matrix, summed slab by slab, plus the bias entry j.
  Point t writes rows 5000·t … 5000·t + 4999; the weight matrix and the bias row are read whole at every point.
-/
import proofs.«164281_j49383533969583_2_alg».proof.Proof.Body3
import proofs.«164281_j49383533969583_2_alg».proof.Proof.Spec
import proofs.«164281_j49383533969583_2_alg».proof.Proof.PayReads
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz3 : (![0, 0] : Fin 2 → Nat) = fun _ => 0 := funext fun a => by fin_cases a <;> rfl

/-- The three row-tiled inputs move with the output down the rows; the weight matrix and the bias row stay at block 0. -/
theorem idx_facts3 : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = win3_5.index t (0 : Fin 2)
    ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 19 ∧ win3_5.index t (1 : Fin 2) = 0 :=
  (by decide +kernel : ∀ t : Fin grid3.N, _)

theorem idx_onto3 : ∀ q0 : Fin 20, ∃ t : Fin cfg3.N, win3_5.index t = ![q0.val, 0] :=
  (by decide +kernel : ∀ q0 : Fin 20, ∃ t : Fin grid3.N, win3_5.index t = ![q0.val, 0])

set_option maxHeartbeats 4000000 in
/-- What point `t` writes back is block `t` of `G3` of the arrays as the region finds them. -/
theorem flushed3_5 (c : Dev nD) (t : Fin cfg3.N) :
    (dat3 (F := Ideal) V c).flushed 5 t
      = ((cfg3.win 5).blk t).view.read (Elt Ideal) (Spec.G3 (V c main_arg0) (V c main_v19_0) (V c main_v30_0) (V c main_arg3) (V c main_v31)) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S1x64) hz3]
  obtain ⟨e0, e1, e2, e3, e4, e5, e6, e7, e8, e9, e10, e11⟩ := idx_facts3 t
  funext y
  obtain ⟨r, j, rfl⟩ : ∃ (r : Fin 5000) (j : Fin 64), y = ix2 r j := ⟨y 0, y 1, eq_ix2 y⟩
  refine (Spec.pay3_at r j (View.ld (iblk3 V c 3 t) rW0) (View.ld (iblk3 V c 3 t) rW1) (View.ld (iblk3 V c 3 t) rW2)
    (iblk3 V c 0 t) (iblk3 V c 1 t) (iblk3 V c 2 t) (iblk3 V c 4 t)).trans ?_
  have hR : win3_5.index t (0 : Fin 2) * 5000 + r.val < 100000 := by have := r.isLt; omega
  have hy : ((cfg3.win 5).blk t).view.emb (ix2 r j) = ix2 (⟨win3_5.index t (0 : Fin 2) * 5000 + r.val, hR⟩ : Fin 100000) j := by
    funext a; apply Fin.ext
    match a with
    | ⟨0, _⟩ => show win3_5.index t (0 : Fin 2) * 5000 + 1 * r.val = win3_5.index t (0 : Fin 2) * 5000 + r.val; omega
    | ⟨1, _⟩ => show win3_5.index t (1 : Fin 2) * 64 + 1 * j.val = j.val; omega
  show _ = Spec.G3 _ _ _ _ _ (((cfg3.win 5).blk t).view.emb (ix2 r j))
  rw [hy]
  have hw0 : ∀ k : Fin 64, ((cfg3.win 3).blk t).view.emb (rW0.emb (ix2 k j)) = ix2 (⟨0 + k.val, by omega⟩ : Fin 192) j := by
    intro k; funext a; apply Fin.ext
    match a with
    | ⟨0, _⟩ => show win3_3.index t (0 : Fin 2) * 192 + 1 * (0 + 1 * k.val) = 0 + k.val; omega
    | ⟨1, _⟩ => show win3_3.index t (1 : Fin 2) * 64 + 1 * (0 + 1 * j.val) = j.val; omega
  have hw1 : ∀ k : Fin 64, ((cfg3.win 3).blk t).view.emb (rW1.emb (ix2 k j)) = ix2 (⟨64 + k.val, by omega⟩ : Fin 192) j := by
    intro k; funext a; apply Fin.ext
    match a with
    | ⟨0, _⟩ => show win3_3.index t (0 : Fin 2) * 192 + 1 * (64 + 1 * k.val) = 64 + k.val; omega
    | ⟨1, _⟩ => show win3_3.index t (1 : Fin 2) * 64 + 1 * (0 + 1 * j.val) = j.val; omega
  have hw2 : ∀ k : Fin 64, ((cfg3.win 3).blk t).view.emb (rW2.emb (ix2 k j)) = ix2 (⟨128 + k.val, by omega⟩ : Fin 192) j := by
    intro k; funext a; apply Fin.ext
    match a with
    | ⟨0, _⟩ => show win3_3.index t (0 : Fin 2) * 192 + 1 * (128 + 1 * k.val) = 128 + k.val; omega
    | ⟨1, _⟩ => show win3_3.index t (1 : Fin 2) * 64 + 1 * (0 + 1 * j.val) = j.val; omega
  have hx0 : ∀ k : Fin 64, ((cfg3.win 0).blk t).view.emb (ix2 r k) = ix2 (⟨win3_5.index t (0 : Fin 2) * 5000 + r.val, hR⟩ : Fin 100000) k := by
    intro k; funext a; apply Fin.ext
    match a with
    | ⟨0, _⟩ => show win3_0.index t (0 : Fin 2) * 5000 + 1 * r.val = win3_5.index t (0 : Fin 2) * 5000 + r.val; omega
    | ⟨1, _⟩ => show win3_0.index t (1 : Fin 2) * 64 + 1 * k.val = k.val; omega
  have hx1 : ∀ k : Fin 64, ((cfg3.win 1).blk t).view.emb (ix2 r k) = ix2 (⟨win3_5.index t (0 : Fin 2) * 5000 + r.val, hR⟩ : Fin 100000) k := by
    intro k; funext a; apply Fin.ext
    match a with
    | ⟨0, _⟩ => show win3_1.index t (0 : Fin 2) * 5000 + 1 * r.val = win3_5.index t (0 : Fin 2) * 5000 + r.val; omega
    | ⟨1, _⟩ => show win3_1.index t (1 : Fin 2) * 64 + 1 * k.val = k.val; omega
  have hx2 : ∀ k : Fin 64, ((cfg3.win 2).blk t).view.emb (ix2 r k) = ix2 (⟨win3_5.index t (0 : Fin 2) * 5000 + r.val, hR⟩ : Fin 100000) k := by
    intro k; funext a; apply Fin.ext
    match a with
    | ⟨0, _⟩ => show win3_2.index t (0 : Fin 2) * 5000 + 1 * r.val = win3_5.index t (0 : Fin 2) * 5000 + r.val; omega
    | ⟨1, _⟩ => show win3_2.index t (1 : Fin 2) * 64 + 1 * k.val = k.val; omega
  have hb : ((cfg3.win 4).blk t).view.emb (ix2 (0 : Fin 1) j) = ix2 (0 : Fin 1) j := by
    funext a; apply Fin.ext
    match a with
    | ⟨0, _⟩ => show win3_4.index t (0 : Fin 2) * 1 + 1 * 0 = 0; omega
    | ⟨1, _⟩ => show win3_4.index t (1 : Fin 2) * 64 + 1 * j.val = j.val; omega
  have hx0' : ∀ k : Fin 64, iblk3 V c 0 t (ix2 r k) = V c main_arg0 (ix2 (⟨win3_5.index t (0 : Fin 2) * 5000 + r.val, hR⟩ : Fin 100000) k) :=
    fun k => congrArg (V c main_arg0) (hx0 k)
  have hx1' : ∀ k : Fin 64, iblk3 V c 1 t (ix2 r k) = V c main_v19_0 (ix2 (⟨win3_5.index t (0 : Fin 2) * 5000 + r.val, hR⟩ : Fin 100000) k) :=
    fun k => congrArg (V c main_v19_0) (hx1 k)
  have hx2' : ∀ k : Fin 64, iblk3 V c 2 t (ix2 r k) = V c main_v30_0 (ix2 (⟨win3_5.index t (0 : Fin 2) * 5000 + r.val, hR⟩ : Fin 100000) k) :=
    fun k => congrArg (V c main_v30_0) (hx2 k)
  have hw0' : ∀ k : Fin 64, View.ld (iblk3 V c 3 t) rW0 (ix2 k j) = V c main_arg3 (ix2 (⟨0 + k.val, by omega⟩ : Fin 192) j) :=
    fun k => congrArg (V c main_arg3) (hw0 k)
  have hw1' : ∀ k : Fin 64, View.ld (iblk3 V c 3 t) rW1 (ix2 k j) = V c main_arg3 (ix2 (⟨64 + k.val, by omega⟩ : Fin 192) j) :=
    fun k => congrArg (V c main_arg3) (hw1 k)
  have hw2' : ∀ k : Fin 64, View.ld (iblk3 V c 3 t) rW2 (ix2 k j) = V c main_arg3 (ix2 (⟨128 + k.val, by omega⟩ : Fin 192) j) :=
    fun k => congrArg (V c main_arg3) (hw2 k)
  have hb' : iblk3 V c 4 t (ix2 (0 : Fin 1) j) = V c main_v31 (ix2 (0 : Fin 1) j) := congrArg (V c main_v31) hb
  simp only [hx0', hx1', hx2', hw0', hw1', hw2', hb']
  rfl

theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v32).slice (win3_5.rect t)).set ↔ _
  rw [View.set_slice_whole, Rect.mem_set_unit]
  exact Iff.rfl

theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The output of the whole program's last region, whole. -/
theorem final3 (c : Dev nD) : (dat3 (F := Ideal) V c).arrAt 5 cfg3.N
    = Spec.G3 (V c main_arg0) (V c main_v19_0) (V c main_v30_0) (V c main_arg3) (V c main_v31) :=
  (dat3 (F := Ideal) V c).arrAt_eq_of_cover 5 _ (fun t _ => flushed3_5 V c t) cover3

end Cert.KernelIdeal.Val

end
-- ==== Proof.Compose.lean ====
/-
  The program's result as one function of its five argument arrays, on the extended reals.

  D is the column of inverse square-root degrees (a function of the destination indices alone); S x gathers the rows
  of x at the source indices and adds them up at the destination indices. With x₀ the features:
    x₁ = G1a (S (G0 x₀ D)) D x₀ x₀,   y₁ = G1b (S (G0 x₀ D)) D x₀ x₀,   x₂ = G2a (S y₁) D x₁ x₀,
  and the result is G3 x₀ x₁ x₂ W b, with the bias vector seen as one row.
-/
import proofs.«164281_j49383533969583_2_alg».proof.Proof.Spec
import proofs.«164281_j49383533969583_2_alg».proof.Proof.Gen.KernelIdeal

noncomputable section

namespace Cert.KernelIdeal.Spec

open Idealize.ShloMosaic Idealize.ShloMosaic.ValueIdx Cert.KernelIdeal Cert.KernelIdeal.Facts₀

/-- The column of inverse square-root degrees, from the destination indices. -/
def hostD (a2 : S1250000.Idx → Elt Ideal .i32) : S100000x1.Idx → Elt Ideal .f32 :=
  Host.powf (F := Ideal)
    (broadcastInDim S100000x1 ![0] bcast_S100000_S100000x1_0
      (maximumf (F := Ideal) (broadcastInDim S100000 ![] bcast_S_S100000 (id (constant (F := Ideal) S_ .f32 0x3F800000#32)))
        (Host.scatterAdd (F := Ideal) scatter_S100000_S1250000x1_S1250000_n_0_0_1
          (broadcastInDim S100000 ![] bcast_S_S100000 (constant (F := Ideal) S_ .f32 0x00000000#32))
          (broadcastInDim S1250000x1 ![0] bcast_S1250000_S1250000x1_0 a2)
          (broadcastInDim S1250000 ![] bcast_S_S1250000 (constant (F := Ideal) S_ .f32 0x3F800000#32)))))
    (broadcastInDim S100000x1 ![] bcast_S_S100000x1 (constant (F := Ideal) S_ .f32 0xBF000000#32))

/-- Gather the rows of `x` at the source indices (a negative index counted from the end), then add them up at the
    destination indices. -/
def hostSG (a1 a2 : S1250000.Idx → Elt Ideal .i32) (x : S100000x64.Idx → Elt Ideal .f32) : S100000x64.Idx → Elt Ideal .f32 :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 a2)
    (Host.gather gather_S100000x64_S1250000x1_S1250000x64_1_0_n_n_0_1_164 x
      (broadcastInDim S1250000x1 ![0] bcast_S1250000_S1250000x1_0
        (select (cmpi .slt a1 (broadcastInDim S1250000 ![] bcast_S_S1250000 (constantI S_ 32 0#32)))
          (addi a1 (broadcastInDim S1250000 ![] bcast_S_S1250000 (constantI S_ 32 100000#32))) a1)))

variable (a0 : S100000x64.Idx → Elt Ideal .f32) (a1 a2 : S1250000.Idx → Elt Ideal .i32)
  (a3 : S192x64.Idx → Elt Ideal .f32) (a4 : S64.Idx → Elt Ideal .f32)

/-- The first recursion step. -/
def X1v : S100000x64.Idx → Elt Ideal .f32 := G1a (hostSG a1 a2 (G0 a0 (hostD a2))) (hostD a2) a0 a0
/-- The first recursion step, scaled again. -/
def Y1v : S100000x64.Idx → Elt Ideal .f32 := G1b (hostSG a1 a2 (G0 a0 (hostD a2))) (hostD a2) a0 a0
/-- The second recursion step. -/
def X2v : S100000x64.Idx → Elt Ideal .f32 := G2a (hostSG a1 a2 (Y1v a0 a1 a2)) (hostD a2) (X1v a0 a1 a2) a0
/-- The result. -/
def OUTv : S100000x64.Idx → Elt Ideal .f32 :=
  G3 a0 (X1v a0 a1 a2) (X2v a0 a1 a2) a3 (shapeCast S1x64 a4 shapeCasts_S64_S1x64)

end Cert.KernelIdeal.Spec

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.Fold.lean ====
/-
  The buffers' contents followed through the program at the extended reals: each host stretch is read as a function
  of the buffers it reads, each region's outputs are the whole-array functions of the arrays it reads, and every
  buffer a stretch or a region does not write keeps its contents. Composed from the launch to the return, the result
  buffer ends at `Spec.OUTv` of the five argument arrays.
-/
import proofs.«164281_j49383533969583_2_alg».proof.Proof.Keep
import proofs.«164281_j49383533969583_2_alg».proof.Proof.Val0
import proofs.«164281_j49383533969583_2_alg».proof.Proof.Val1
import proofs.«164281_j49383533969583_2_alg».proof.Proof.Val2
import proofs.«164281_j49383533969583_2_alg».proof.Proof.Val3
import proofs.«164281_j49383533969583_2_alg».proof.Proof.Compose
import Idealize.ShloMosaic.Lib.StableHlo.Run
import proofs.«164281_j49383533969583_2_alg».proof.Proof.LibTypedRefs

set_option maxRecDepth 16384

noncomputable section

namespace Cert.KernelIdeal.Val

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Fr

/-! ## The host stretches as functions of what they read -/

theorem after_D (Vx : Valuation τ sig (Elt Ideal)) :
    after hostOps0_2 (after hostOps0_1 (after hostOps0 Vx)) (Proc.devRef .tc main_v7) = Spec.hostD (Vx (Proc.devRef .tc main_arg2)) := by
  after_results
  repeat (first | rw [TRef.toBuf_self] | rw [TRef.ofBuf_self])
  unfold Spec.hostD
  rfl

theorem after_SG1 (Vx : Valuation τ sig (Elt Ideal)) :
    after hostOps1 Vx (Proc.devRef .tc main_v18)
      = Spec.hostSG (Vx (Proc.devRef .tc main_arg1)) (Vx (Proc.devRef .tc main_arg2)) (Vx (Proc.devRef .tc main_v8)) := by
  after_results
  unfold Spec.hostSG
  rfl

theorem after_SG2 (Vx : Valuation τ sig (Elt Ideal)) :
    after hostOps2 Vx (Proc.devRef .tc main_v29)
      = Spec.hostSG (Vx (Proc.devRef .tc main_arg1)) (Vx (Proc.devRef .tc main_arg2)) (Vx (Proc.devRef .tc main_v19_1)) := by
  after_results
  unfold Spec.hostSG
  rfl

theorem after_bias (Vx : Valuation τ sig (Elt Ideal)) :
    after hostOps3 Vx (Proc.devRef .tc main_v31)
      = shapeCast S1x64 (Vx (Proc.devRef .tc main_arg4)) Facts₀.shapeCasts_S64_S1x64 := by
  after_results
  rfl

variable (m : (ℓ : Loc nD τ sig) → Buf (Elt Ideal) ℓ) (ρ : Dev nD → PrngReg) (c : Dev nD)

/-! ## The buffers the regions read, as functions of the arguments -/

/-- The column of inverse square-root degrees, where region 0 reads it, -/
theorem d3 : W3 m ρ c (Proc.devRef .tc main_v7) = Spec.hostD (m ((c : Thread nD τ).loc main_arg2)) := after_D (W0 m ρ c)
/-- where region 1 reads it, -/
theorem d5 : W5 m ρ c (Proc.devRef .tc main_v7) = Spec.hostD (m ((c : Thread nD τ).loc main_arg2)) :=
  (keep5 m ρ c main_v7 (by decide)).trans ((keep4 m ρ c main_v7 (by decide)).trans (d3 m ρ c))
/-- and where region 2 reads it. -/
theorem d7 : W7 m ρ c (Proc.devRef .tc main_v7) = Spec.hostD (m ((c : Thread nD τ).loc main_arg2)) :=
  (keep7 m ρ c main_v7 (by decide)).trans ((keep6 m ρ c main_v7 (by decide) (by decide)).trans (d5 m ρ c))

/-- Region 0 leaves the scaled rows. -/
theorem y0_4 : W4 m ρ c (Proc.devRef .tc main_v8) = Spec.G0 (m ((c : Thread nD τ).loc main_arg0)) (Spec.hostD (m ((c : Thread nD τ).loc main_arg2))) := by
  refine ((W4_arr m ρ c 2).trans (final0_2 (E3 m ρ) c)).trans ?_
  show Spec.G0 (W3 m ρ c (Proc.devRef .tc main_arg0)) (W3 m ρ c (Proc.devRef .tc main_v7)) = _
  rw [at3 m ρ c main_arg0 (by decide) (by decide) (by decide), d3]

/-- The first neighbourhood sum. -/
theorem s5 : W5 m ρ c (Proc.devRef .tc main_v18) = Spec.hostSG (m ((c : Thread nD τ).loc main_arg1)) (m ((c : Thread nD τ).loc main_arg2)) (Spec.G0 (m ((c : Thread nD τ).loc main_arg0)) (Spec.hostD (m ((c : Thread nD τ).loc main_arg2)))) := by
  refine (after_SG1 (W4 m ρ c)).trans ?_
  rw [(keep4 m ρ c main_arg1 (by decide)).trans (at3 m ρ c main_arg1 (by decide) (by decide) (by decide)),
    (keep4 m ρ c main_arg2 (by decide)).trans (at3 m ρ c main_arg2 (by decide) (by decide) (by decide)), y0_4]

/-- Region 1 leaves the first recursion step, -/
theorem x1_6 : W6 m ρ c (Proc.devRef .tc main_v19_0) = Spec.X1v (m ((c : Thread nD τ).loc main_arg0)) (m ((c : Thread nD τ).loc main_arg1)) (m ((c : Thread nD τ).loc main_arg2)) := by
  refine ((hF1 m ρ c 4).symm.trans (final1_4 (E5 m ρ) c)).trans ?_
  show Spec.G1a (W5 m ρ c (Proc.devRef .tc main_v18)) (W5 m ρ c (Proc.devRef .tc main_v7)) (W5 m ρ c (Proc.devRef .tc main_arg0)) (W5 m ρ c (Proc.devRef .tc main_arg0)) = _
  rw [s5, d5, at5 m ρ c main_arg0 (by decide) (by decide) (by decide) (by decide) (by decide)]
  rfl
/-- and that step scaled again. -/
theorem y1_6 : W6 m ρ c (Proc.devRef .tc main_v19_1) = Spec.Y1v (m ((c : Thread nD τ).loc main_arg0)) (m ((c : Thread nD τ).loc main_arg1)) (m ((c : Thread nD τ).loc main_arg2)) := by
  refine ((hF1 m ρ c 5).symm.trans (final1_5 (E5 m ρ) c)).trans ?_
  show Spec.G1b (W5 m ρ c (Proc.devRef .tc main_v18)) (W5 m ρ c (Proc.devRef .tc main_v7)) (W5 m ρ c (Proc.devRef .tc main_arg0)) (W5 m ρ c (Proc.devRef .tc main_arg0)) = _
  rw [s5, d5, at5 m ρ c main_arg0 (by decide) (by decide) (by decide) (by decide) (by decide)]
  rfl

/-- The second neighbourhood sum. -/
theorem s7 : W7 m ρ c (Proc.devRef .tc main_v29) = Spec.hostSG (m ((c : Thread nD τ).loc main_arg1)) (m ((c : Thread nD τ).loc main_arg2)) (Spec.Y1v (m ((c : Thread nD τ).loc main_arg0)) (m ((c : Thread nD τ).loc main_arg1)) (m ((c : Thread nD τ).loc main_arg2))) := by
  refine (after_SG2 (W6 m ρ c)).trans ?_
  rw [(keep6 m ρ c main_arg1 (by decide) (by decide)).trans (at5 m ρ c main_arg1 (by decide) (by decide) (by decide) (by decide) (by decide)),
    (keep6 m ρ c main_arg2 (by decide) (by decide)).trans (at5 m ρ c main_arg2 (by decide) (by decide) (by decide) (by decide) (by decide)), y1_6]

theorem x1_7 : W7 m ρ c (Proc.devRef .tc main_v19_0) = Spec.X1v (m ((c : Thread nD τ).loc main_arg0)) (m ((c : Thread nD τ).loc main_arg1)) (m ((c : Thread nD τ).loc main_arg2)) :=
  (keep7 m ρ c main_v19_0 (by decide)).trans (x1_6 m ρ c)

/-- Region 2 leaves the second recursion step. -/
theorem x2_8 : W8 m ρ c (Proc.devRef .tc main_v30_0) = Spec.X2v (m ((c : Thread nD τ).loc main_arg0)) (m ((c : Thread nD τ).loc main_arg1)) (m ((c : Thread nD τ).loc main_arg2)) := by
  refine ((W8_arr m ρ c 4).trans (final2_4 (E7 m ρ) c)).trans ?_
  show Spec.G2a (W7 m ρ c (Proc.devRef .tc main_v29)) (W7 m ρ c (Proc.devRef .tc main_v7)) (W7 m ρ c (Proc.devRef .tc main_v19_0)) (W7 m ρ c (Proc.devRef .tc main_arg0)) = _
  rw [s7, d7, x1_7, at7 m ρ c main_arg0 (by decide) (by decide) (by decide) (by decide) (by decide) (by decide) (by decide) (by decide)]
  rfl

theorem x1_9 : W9 m ρ c (Proc.devRef .tc main_v19_0) = Spec.X1v (m ((c : Thread nD τ).loc main_arg0)) (m ((c : Thread nD τ).loc main_arg1)) (m ((c : Thread nD τ).loc main_arg2)) :=
  (keep9 m ρ c main_v19_0 (by decide)).trans ((keep8 m ρ c main_v19_0 (by decide) (by decide)).trans (x1_7 m ρ c))
theorem x2_9 : W9 m ρ c (Proc.devRef .tc main_v30_0) = Spec.X2v (m ((c : Thread nD τ).loc main_arg0)) (m ((c : Thread nD τ).loc main_arg1)) (m ((c : Thread nD τ).loc main_arg2)) :=
  (keep9 m ρ c main_v30_0 (by decide)).trans (x2_8 m ρ c)
/-- The bias vector seen as one row. -/
theorem b_9 : W9 m ρ c (Proc.devRef .tc main_v31) = shapeCast S1x64 (m ((c : Thread nD τ).loc main_arg4)) Facts₀.shapeCasts_S64_S1x64 := by
  refine (after_bias (W8 m ρ c)).trans ?_
  rw [(keep8 m ρ c main_arg4 (by decide) (by decide)).trans (at7 m ρ c main_arg4 (by decide) (by decide) (by decide) (by decide) (by decide) (by decide) (by decide) (by decide))]

/-- THE RESULT: the last region leaves `Spec.OUTv` of the five argument arrays in the result buffer. -/
theorem out10 : W10 m ρ c (Proc.devRef .tc main_v32) = Spec.OUTv (m ((c : Thread nD τ).loc main_arg0)) (m ((c : Thread nD τ).loc main_arg1)) (m ((c : Thread nD τ).loc main_arg2)) (m ((c : Thread nD τ).loc main_arg3)) (m ((c : Thread nD τ).loc main_arg4)) := by
  refine ((W10_arr m ρ c 5).trans (final3 (E9 m ρ) c)).trans ?_
  show Spec.G3 (W9 m ρ c (Proc.devRef .tc main_arg0)) (W9 m ρ c (Proc.devRef .tc main_v19_0)) (W9 m ρ c (Proc.devRef .tc main_v30_0))
    (W9 m ρ c (Proc.devRef .tc main_arg3)) (W9 m ρ c (Proc.devRef .tc main_v31)) = _
  rw [at9 m ρ c main_arg0 (by decide) (by decide) (by decide) (by decide) (by decide) (by decide) (by decide) (by decide) (by decide) (by decide) (by decide), x1_9, x2_9,
    at9 m ρ c main_arg3 (by decide) (by decide) (by decide) (by decide) (by decide) (by decide) (by decide) (by decide) (by decide) (by decide) (by decide), b_9]
  rfl

end Cert.KernelIdeal.Val

end
-- ==== Proof.RefForms.lean ====
/-
  The reference's five intermediate arrays, as it spells them, are the whole-array functions of Spec.lean, on the
  extended reals.

  Read at an entry (r, j): a column [100000, 1] broadcast along the rows reads the column at (r, 0); a splat constant
  reads the extended real its word denotes; the bias vector broadcast to one row and then to every row reads the vector at
  j; the three arrays joined along the columns read the first, second or third array according to the third of the 192
  columns the coordinate falls in; and the product with the weight matrix is the sum over the 192 joined columns, which
  splits into the three sums over 64 columns against the three 64-row slabs of the weights (a finite sum on the extended
  reals is commutative and associative: nothing else is used). The arithmetic: 0 · x = 0 for every extended real x, so
  the terms with a zero coefficient vanish; (−1) · y = −y and u − y = u + (−y).
-/
import proofs.«164281_j49383533969583_2_alg».proof.Proof.Spec
import proofs.«164281_j49383533969583_2_alg».proof.ReferenceIdeal
import proofs.«164281_j49383533969583_2_alg».proof.Proof.Gen.ReferenceIdeal
import Idealize.ShloMosaic.Lib.Pipeline.Value
import Idealize.ShloMosaic.Lib.ValueLayout
import Idealize.ShloMosaic.PureOps.Ideal.Laws

noncomputable section

namespace Cert.KernelIdeal.Spec

open Idealize.ShloMosaic Idealize.ShloMosaic.ValueIdx

/-- The column of scales broadcast along the rows, as the reference spells it. -/
local notation "bcD" => broadcastInDim ReferenceIdeal.S100000x64 ![0, 1] ReferenceIdeal.Gen.bcast_S100000x1_S100000x64_0_1
/-- A splat constant, as the reference spells it. -/
local notation "bc0" h:max => broadcastInDim ReferenceIdeal.S100000x64 ![] ReferenceIdeal.Gen.bcast_S_S100000x64 (constant (F := Ideal) ReferenceIdeal.S_ FTy.f32 h)

/-! ## The reference's layout operations at an entry -/

section Reads
variable {α : Type}

/-- The column broadcast along the rows reads, at (r, j), the column at (r, 0). -/
theorem refCol_at (d : ReferenceIdeal.S100000x1.Idx → α) (r : Fin 100000) (j : Fin 64) :
    bcD d (ix2 r j) = d (ix2 r (0 : Fin 1)) :=
  broadcastInDim_apply _ ReferenceIdeal.Gen.bcast_S100000x1_S100000x64_0_1 d (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-- The bias vector broadcast to one row and then to every row reads, at (r, j), the vector at j. -/
theorem refBias_at (b : ReferenceIdeal.S64.Idx → α) (r : Fin 100000) (j : Fin 64) :
    broadcastInDim ReferenceIdeal.S100000x64 ![0, 1] ReferenceIdeal.Gen.bcast_S1x64_S100000x64_0_1
        (broadcastInDim ReferenceIdeal.S1x64 ![1] ReferenceIdeal.Gen.bcast_S64_S1x64_1 b) (ix2 r j) = b (ix1 j) := by
  refine (broadcastInDim_apply _ ReferenceIdeal.Gen.bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ ReferenceIdeal.Gen.bcast_S64_S1x64_1 b (ix2 (0 : Fin 1) j) (ix1 j) (fun a => match a with
    | ⟨0, _⟩ => by show j.val = if (64 : Nat) = 1 then 0 else j.val; rw [if_neg (by decide)])

/-- The three arrays joined along the columns read, in the column o + c of the third that starts at o, the array of that
    third at column c. -/
theorem refCat0_at (x0 x1 x2 : ReferenceIdeal.S100000x64.Idx → α) (r : Fin 100000) (c : Fin 64) :
    concatenate ReferenceIdeal.S100000x192 1 [⟨ReferenceIdeal.S100000x64, x0⟩, ⟨ReferenceIdeal.S100000x64, x1⟩, ⟨ReferenceIdeal.S100000x64, x2⟩]
        ReferenceIdeal.Gen.concatenates_S100000x64_S100000x64_S100000x64_S100000x192_d1 (ix2 r (⟨0 + c.val, by omega⟩ : Fin 192))
      = x0 (ix2 r c) :=
  concatenate_apply_piece (t := ReferenceIdeal.S100000x192) 1 [⟨ReferenceIdeal.S100000x64, x0⟩, ⟨ReferenceIdeal.S100000x64, x1⟩, ⟨ReferenceIdeal.S100000x64, x2⟩]
    ReferenceIdeal.Gen.concatenates_S100000x64_S100000x64_S100000x64_S100000x192_d1 (ix2 r (⟨0 + c.val, by omega⟩ : Fin 192)) 0 (show (0 : ℕ) < 3 by decide) ReferenceIdeal.S100000x64 x0 rfl rfl 0 rfl (ix2 r c)
    (fun b hb => match b with
      | ⟨0, _⟩ => rfl
      | ⟨1, _⟩ => absurd rfl hb)
    rfl
theorem refCat1_at (x0 x1 x2 : ReferenceIdeal.S100000x64.Idx → α) (r : Fin 100000) (c : Fin 64) :
    concatenate ReferenceIdeal.S100000x192 1 [⟨ReferenceIdeal.S100000x64, x0⟩, ⟨ReferenceIdeal.S100000x64, x1⟩, ⟨ReferenceIdeal.S100000x64, x2⟩]
        ReferenceIdeal.Gen.concatenates_S100000x64_S100000x64_S100000x64_S100000x192_d1 (ix2 r (⟨64 + c.val, by omega⟩ : Fin 192))
      = x1 (ix2 r c) :=
  concatenate_apply_piece (t := ReferenceIdeal.S100000x192) 1 [⟨ReferenceIdeal.S100000x64, x0⟩, ⟨ReferenceIdeal.S100000x64, x1⟩, ⟨ReferenceIdeal.S100000x64, x2⟩]
    ReferenceIdeal.Gen.concatenates_S100000x64_S100000x64_S100000x64_S100000x192_d1 (ix2 r (⟨64 + c.val, by omega⟩ : Fin 192)) 1 (show (1 : ℕ) < 3 by decide) ReferenceIdeal.S100000x64 x1 rfl rfl 64 rfl (ix2 r c)
    (fun b hb => match b with
      | ⟨0, _⟩ => rfl
      | ⟨1, _⟩ => absurd rfl hb)
    rfl
theorem refCat2_at (x0 x1 x2 : ReferenceIdeal.S100000x64.Idx → α) (r : Fin 100000) (c : Fin 64) :
    concatenate ReferenceIdeal.S100000x192 1 [⟨ReferenceIdeal.S100000x64, x0⟩, ⟨ReferenceIdeal.S100000x64, x1⟩, ⟨ReferenceIdeal.S100000x64, x2⟩]
        ReferenceIdeal.Gen.concatenates_S100000x64_S100000x64_S100000x64_S100000x192_d1 (ix2 r (⟨128 + c.val, by omega⟩ : Fin 192))
      = x2 (ix2 r c) :=
  concatenate_apply_piece (t := ReferenceIdeal.S100000x192) 1 [⟨ReferenceIdeal.S100000x64, x0⟩, ⟨ReferenceIdeal.S100000x64, x1⟩, ⟨ReferenceIdeal.S100000x64, x2⟩]
    ReferenceIdeal.Gen.concatenates_S100000x64_S100000x64_S100000x64_S100000x192_d1 (ix2 r (⟨128 + c.val, by omega⟩ : Fin 192)) 2 (show (2 : ℕ) < 3 by decide) ReferenceIdeal.S100000x64 x2 rfl rfl 128 rfl (ix2 r c)
    (fun b hb => match b with
      | ⟨0, _⟩ => rfl
      | ⟨1, _⟩ => absurd rfl hb)
    rfl

end Reads

/-! ## The product with the weights at an entry -/

theorem refLhs_row (i : ReferenceIdeal.S100000x64.Idx) (q : ReferenceIdeal.dot_S100000x192_S192x64_S100000x64_1_0_0_1_n_n.contr.Idx) :
    (ReferenceIdeal.dot_S100000x192_S192x64_S100000x64_1_0_0_1_n_n.lhsIdx i q 0).val = (i 0).val := by
  unfold DotDims.lhsIdx
  rw [dif_neg (show ¬(0 : Fin ReferenceIdeal.S100000x192.rank) ∈ ReferenceIdeal.dot_S100000x192_S192x64_S100000x64_1_0_0_1_n_n.lhsBatch by decide),
    dif_pos (show (0 : Fin ReferenceIdeal.S100000x192.rank) ∈ ReferenceIdeal.dot_S100000x192_S192x64_S100000x64_1_0_0_1_n_n.lhsNonContracting by decide)]
  rfl
theorem refLhs_col (i : ReferenceIdeal.S100000x64.Idx) (q : ReferenceIdeal.dot_S100000x192_S192x64_S100000x64_1_0_0_1_n_n.contr.Idx) :
    (ReferenceIdeal.dot_S100000x192_S192x64_S100000x64_1_0_0_1_n_n.lhsIdx i q 1).val = (q ⟨0, by decide⟩).val :=
  ReferenceIdeal.dot_S100000x192_S192x64_S100000x64_1_0_0_1_n_n.lhsIdx_val_of_single rfl i q
theorem refRhs_row (i : ReferenceIdeal.S100000x64.Idx) (q : ReferenceIdeal.dot_S100000x192_S192x64_S100000x64_1_0_0_1_n_n.contr.Idx) :
    (ReferenceIdeal.dot_S100000x192_S192x64_S100000x64_1_0_0_1_n_n.rhsIdx i q 0).val = (q ⟨0, by decide⟩).val :=
  ReferenceIdeal.dot_S100000x192_S192x64_S100000x64_1_0_0_1_n_n.rhsIdx_val_of_single rfl i q
theorem refRhs_col (i : ReferenceIdeal.S100000x64.Idx) (q : ReferenceIdeal.dot_S100000x192_S192x64_S100000x64_1_0_0_1_n_n.contr.Idx) :
    (ReferenceIdeal.dot_S100000x192_S192x64_S100000x64_1_0_0_1_n_n.rhsIdx i q 1).val = (i 1).val := by
  unfold DotDims.rhsIdx
  rw [dif_neg (show ¬(1 : Fin ReferenceIdeal.S192x64.rank) ∈ ReferenceIdeal.dot_S100000x192_S192x64_S100000x64_1_0_0_1_n_n.rhsBatch by decide),
    dif_pos (show (1 : Fin ReferenceIdeal.S192x64.rank) ∈ ReferenceIdeal.dot_S100000x192_S192x64_S100000x64_1_0_0_1_n_n.rhsNonContracting by decide)]
  rfl

/-- The reference's product read at (r, j): the sum over the 192 joined columns k of the left operand at (r, k) times the
    weights at (k, j). -/
theorem refDot_at (X : FVec Ideal ReferenceIdeal.S100000x192 .f32) (w : FVec Ideal ReferenceIdeal.S192x64 .f32) (r : Fin 100000) (j : Fin 64) :
    Host.dotGeneral (F := Ideal) ReferenceIdeal.dot_S100000x192_S192x64_S100000x64_1_0_0_1_n_n none X w (ix2 r j)
      = ∑ k : Fin 192, X (ix2 r k) * w (ix2 k j) := by
  simp only [Host.dotGeneral]
  rw [Ideal.dotGeneral_apply,
    ← Equiv.sum_comp (contrEquiv1 ReferenceIdeal.dot_S100000x192_S192x64_S100000x64_1_0_0_1_n_n 192 rfl rfl).symm]
  refine Finset.sum_congr rfl fun k _ => ?_
  have hk := contrEquiv1_symm_val ReferenceIdeal.dot_S100000x192_S192x64_S100000x64_1_0_0_1_n_n 192 rfl rfl k
  have el : ReferenceIdeal.dot_S100000x192_S192x64_S100000x64_1_0_0_1_n_n.lhsIdx (ix2 r j)
      ((contrEquiv1 ReferenceIdeal.dot_S100000x192_S192x64_S100000x64_1_0_0_1_n_n 192 rfl rfl).symm k) = ix2 r k := funext fun a => Fin.ext (by
    match a with
    | ⟨0, _⟩ => exact refLhs_row _ _
    | ⟨1, _⟩ => exact (refLhs_col _ _).trans hk)
  have er : ReferenceIdeal.dot_S100000x192_S192x64_S100000x64_1_0_0_1_n_n.rhsIdx (ix2 r j)
      ((contrEquiv1 ReferenceIdeal.dot_S100000x192_S192x64_S100000x64_1_0_0_1_n_n 192 rfl rfl).symm k) = ix2 k j := funext fun a => Fin.ext (by
    match a with
    | ⟨0, _⟩ => exact (refRhs_row _ _).trans hk
    | ⟨1, _⟩ => exact refRhs_col _ _)
  rw [el, er]

/-- A sum over 192 columns is the sum over the first 64, plus the sum over the next 64, plus the sum over the last 64. -/
theorem sum_fin192 {M : Type} [AddCommMonoid M] (f : Fin 192 → M) :
    ∑ k : Fin 192, f k
      = (∑ k : Fin 64, f ⟨0 + k.val, by omega⟩ + ∑ k : Fin 64, f ⟨64 + k.val, by omega⟩) + ∑ k : Fin 64, f ⟨128 + k.val, by omega⟩ := by
  have h1 : ∑ k : Fin (128 + 64), f k = ∑ k : Fin 128, f (Fin.castAdd 64 k) + ∑ k : Fin 64, f (Fin.natAdd 128 k) :=
    Fin.sum_univ_add (a := 128) (b := 64) f
  have h2 : ∑ k : Fin (64 + 64), f (Fin.castAdd 64 k)
      = ∑ k : Fin 64, f (Fin.castAdd 64 (Fin.castAdd 64 k)) + ∑ k : Fin 64, f (Fin.castAdd 64 (Fin.natAdd 64 k)) :=
    Fin.sum_univ_add (a := 64) (b := 64) fun k : Fin (64 + 64) => f (Fin.castAdd 64 k)
  refine h1.trans ?_
  refine congrArg₂ (· + ·) (h2.trans ?_) rfl
  refine congrArg₂ (· + ·) (Finset.sum_congr rfl fun k _ => congrArg f (Fin.ext ?_)) rfl
  show k.val = 0 + k.val
  rw [Nat.zero_add]

/-! ## The scalar arithmetic on the extended reals -/

/-- The first recursion step: the two terms with coefficient zero vanish. -/
theorem arith1 (n A X : EReal) :
    (n * A + Ideal.ofBits .f32 0x00000000#32 * X) + Ideal.ofBits .f32 0x00000000#32 * X = n * A + X * Ideal.ofBits .f32 0x00000000#32 := by
  rw [Ideal.ofBits_zero_f32]
  simp only [zero_mul, mul_zero, add_zero]

/-- The second recursion step: adding (−1) · y is subtracting y. -/
theorem arith2 (u Y : EReal) : u + Ideal.ofBits .f32 0xBF800000#32 * Y = u - Y := by
  rw [show Ideal.ofBits .f32 0xBF800000#32 = -1 from IdealRules.sign_bit.ideal_negOnePat .f32, neg_one_mul, sub_eq_add_neg]

/-! ## The five forms -/

/-- The scaled rows. -/
theorem ref0 (x : ReferenceIdeal.S100000x64.Idx → Elt Ideal .f32) (d : ReferenceIdeal.S100000x1.Idx → Elt Ideal .f32) :
    G0 x d = mulf (F := Ideal) (φ := .f32) x (bcD d) := by
  funext i
  obtain ⟨r, j, rfl⟩ : ∃ (r : Fin 100000) (j : Fin 64), i = ix2 r j := ⟨i 0, i 1, eq_ix2 i⟩
  show FloatOps.mulf (F := Ideal) (x (ix2 r j)) (d (ix2 r (0 : Fin 1))) = FloatOps.mulf (F := Ideal) (x (ix2 r j)) (bcD d (ix2 r j))
  rw [refCol_at]

/-- The first recursion step. -/
theorem ref1a (a x : ReferenceIdeal.S100000x64.Idx → Elt Ideal .f32) (d : ReferenceIdeal.S100000x1.Idx → Elt Ideal .f32) :
    G1a a d x x = addf (F := Ideal) (φ := .f32) (mulf (bc0 0xBF800000#32) (mulf a (bcD d))) (mulf x (bc0 0x00000000#32)) := by
  funext i
  obtain ⟨r, j, rfl⟩ : ∃ (r : Fin 100000) (j : Fin 64), i = ix2 r j := ⟨i 0, i 1, eq_ix2 i⟩
  show (Ideal.ofBits .f32 0xBF800000#32 * (a (ix2 r j) * d (ix2 r (0 : Fin 1))) + Ideal.ofBits .f32 0x00000000#32 * x (ix2 r j))
        + Ideal.ofBits .f32 0x00000000#32 * x (ix2 r j)
      = Ideal.ofBits .f32 0xBF800000#32 * (a (ix2 r j) * bcD d (ix2 r j)) + x (ix2 r j) * Ideal.ofBits .f32 0x00000000#32
  rw [refCol_at]
  exact arith1 _ _ _

/-- The first recursion step scaled again. -/
theorem ref1b (a x : ReferenceIdeal.S100000x64.Idx → Elt Ideal .f32) (d : ReferenceIdeal.S100000x1.Idx → Elt Ideal .f32) :
    G1b a d x x = mulf (F := Ideal) (φ := .f32) (addf (mulf (bc0 0xBF800000#32) (mulf a (bcD d))) (mulf x (bc0 0x00000000#32))) (bcD d) := by
  funext i
  obtain ⟨r, j, rfl⟩ : ∃ (r : Fin 100000) (j : Fin 64), i = ix2 r j := ⟨i 0, i 1, eq_ix2 i⟩
  show FloatOps.mulf (F := Ideal) (G1a a d x x (ix2 r j)) (d (ix2 r (0 : Fin 1)))
      = FloatOps.mulf (F := Ideal) (addf (F := Ideal) (φ := .f32) (mulf (bc0 0xBF800000#32) (mulf a (bcD d))) (mulf x (bc0 0x00000000#32)) (ix2 r j)) (bcD d (ix2 r j))
  rw [refCol_at, ref1a]

/-- The second recursion step. -/
theorem ref2a (a x1 x0 : ReferenceIdeal.S100000x64.Idx → Elt Ideal .f32) (d : ReferenceIdeal.S100000x1.Idx → Elt Ideal .f32) :
    G2a a d x1 x0 = subf (F := Ideal) (φ := .f32) (addf (mulf (bc0 0xC0000000#32) (mulf a (bcD d))) (mulf (bc0 0x00000000#32) x1)) x0 := by
  funext i
  obtain ⟨r, j, rfl⟩ : ∃ (r : Fin 100000) (j : Fin 64), i = ix2 r j := ⟨i 0, i 1, eq_ix2 i⟩
  show (Ideal.ofBits .f32 0xC0000000#32 * (a (ix2 r j) * d (ix2 r (0 : Fin 1))) + Ideal.ofBits .f32 0x00000000#32 * x1 (ix2 r j))
        + Ideal.ofBits .f32 0xBF800000#32 * x0 (ix2 r j)
      = (Ideal.ofBits .f32 0xC0000000#32 * (a (ix2 r j) * bcD d (ix2 r j)) + Ideal.ofBits .f32 0x00000000#32 * x1 (ix2 r j)) - x0 (ix2 r j)
  rw [refCol_at]
  exact arith2 _ _

/-- The last stage: the product of the three joined arrays with the weights, plus the bias, clamped below at zero. -/
theorem ref3 (x0 x1 x2 : ReferenceIdeal.S100000x64.Idx → Elt Ideal .f32) (w : ReferenceIdeal.S192x64.Idx → Elt Ideal .f32)
    (b : ReferenceIdeal.S64.Idx → Elt Ideal .f32) (b2 : ReferenceIdeal.S1x64.Idx → Elt Ideal .f32)
    (hb : ∀ j : Fin 64, b2 (ix2 (0 : Fin 1) j) = b (ix1 j)) :
    G3 x0 x1 x2 w b2
      = maximumf (F := Ideal) (φ := .f32)
          (addf
            (Host.dotGeneral (F := Ideal) (φ₁ := .f32) (φ₂ := .f32) ReferenceIdeal.dot_S100000x192_S192x64_S100000x64_1_0_0_1_n_n none
              (concatenate ReferenceIdeal.S100000x192 1 [⟨ReferenceIdeal.S100000x64, x0⟩, ⟨ReferenceIdeal.S100000x64, x1⟩, ⟨ReferenceIdeal.S100000x64, x2⟩]
                ReferenceIdeal.Gen.concatenates_S100000x64_S100000x64_S100000x64_S100000x192_d1)
              w)
            (broadcastInDim ReferenceIdeal.S100000x64 ![0, 1] ReferenceIdeal.Gen.bcast_S1x64_S100000x64_0_1
              (broadcastInDim ReferenceIdeal.S1x64 ![1] ReferenceIdeal.Gen.bcast_S64_S1x64_1 b)))
          (bc0 0x00000000#32) := by
  funext i
  obtain ⟨r, j, rfl⟩ : ∃ (r : Fin 100000) (j : Fin 64), i = ix2 r j := ⟨i 0, i 1, eq_ix2 i⟩
  show FloatOps.maximumf (F := Ideal)
      (FloatOps.addf
        (FloatOps.addf (FloatOps.addf (dotSlab x0 w 0 (by omega) r j) (dotSlab x1 w 64 (by omega) r j)) (dotSlab x2 w 128 (by omega) r j))
        (b2 (ix2 (0 : Fin 1) j)))
      (Ideal.ofBits .f32 0x00000000#32)
    = FloatOps.maximumf (F := Ideal)
      (FloatOps.addf
        (Host.dotGeneral (F := Ideal) (φ₁ := .f32) (φ₂ := .f32) ReferenceIdeal.dot_S100000x192_S192x64_S100000x64_1_0_0_1_n_n none
          (concatenate ReferenceIdeal.S100000x192 1 [⟨ReferenceIdeal.S100000x64, x0⟩, ⟨ReferenceIdeal.S100000x64, x1⟩, ⟨ReferenceIdeal.S100000x64, x2⟩]
            ReferenceIdeal.Gen.concatenates_S100000x64_S100000x64_S100000x64_S100000x192_d1)
          w (ix2 r j))
        (broadcastInDim ReferenceIdeal.S100000x64 ![0, 1] ReferenceIdeal.Gen.bcast_S1x64_S100000x64_0_1
          (broadcastInDim ReferenceIdeal.S1x64 ![1] ReferenceIdeal.Gen.bcast_S64_S1x64_1 b) (ix2 r j)))
      (Ideal.ofBits .f32 0x00000000#32)
  rw [refDot_at, refBias_at, hb, sum_fin192]
  simp only [refCat0_at, refCat1_at, refCat2_at]
  rfl

end Cert.KernelIdeal.Spec

end
-- ==== Proof.Bridge.lean ====
/-
  The program's result, as one function of the five argument arrays, is the reference's result term on the extended reals.

  The two are the same composition: the column of inverse square-root degrees and the gather-then-add of rows are the
  same host operations on both sides, and each arithmetic stage of the reference is the whole-array function of Spec.lean
  of the same name (the five forms). The bias vector seen as one row reads the vector at its column.
-/
import proofs.«164281_j49383533969583_2_alg».proof.Proof.Compose
import proofs.«164281_j49383533969583_2_alg».proof.Proof.RefForms
import proofs.«164281_j49383533969583_2_alg».proof.Proof.Gen.ReferenceIdeal.Run

noncomputable section

namespace Cert.KernelIdeal.Spec

open Idealize.ShloMosaic Idealize.ShloMosaic.ValueIdx Idealize.SL.Sem Idealize.ShloMosaic.TcCoe

/-- The bias vector seen as one row reads, at (0, j), the vector at j. -/
theorem biasRow_at (a4 : S64.Idx → Elt Ideal .f32) (h : S64.ShapeCasts S1x64) (j : Fin 64) :
    shapeCast S1x64 a4 h (ix2 (0 : Fin 1) j) = a4 (ix1 j) :=
  shapeCast_a_1a_apply a4 h (0 : Fin 1) j

/-- The result as a function of the argument arrays is the reference's result term. -/
theorem bridge (m' : (ℓ : Loc ReferenceIdeal.nD ReferenceIdeal.τ ReferenceIdeal.sig) → Buf (Elt Ideal) ℓ) (c : Dev ReferenceIdeal.nD) :
    OUTv (m' ((c.tc : Thread ReferenceIdeal.nD ReferenceIdeal.τ).loc ReferenceIdeal.main_arg0))
        (m' ((c.tc : Thread ReferenceIdeal.nD ReferenceIdeal.τ).loc ReferenceIdeal.main_arg1))
        (m' ((c.tc : Thread ReferenceIdeal.nD ReferenceIdeal.τ).loc ReferenceIdeal.main_arg2))
        (m' ((c.tc : Thread ReferenceIdeal.nD ReferenceIdeal.τ).loc ReferenceIdeal.main_arg3))
        (m' ((c.tc : Thread ReferenceIdeal.nD ReferenceIdeal.τ).loc ReferenceIdeal.main_arg4))
      = ReferenceIdeal.Value.res_main_v52 (F := Ideal) m' c := by
  unfold OUTv X2v Y1v X1v
  rw [ref3 _ _ _ _ (m' ((c.tc : Thread ReferenceIdeal.nD ReferenceIdeal.τ).loc ReferenceIdeal.main_arg4)) _ (biasRow_at _ _),
    ref2a, ref1b, ref1a, ref0]
  unfold ReferenceIdeal.Value.res_main_v52 hostSG hostD
  rfl

end Cert.KernelIdeal.Spec

end
-- ==== Proof.lean ====
/-
  The certificate of a Chebyshev graph convolution of order three: the word-level kernel and its idealization run
  to the end and leave their arguments unchanged; the reference runs and leaves its arguments unchanged; and on the
  extended reals the idealized kernel and the reference end with equal results.

  Both programs compute D, the column of inverse square-root in-degrees (clipped below at one), and with S x the
  neighbourhood sum "gather the rows of x at the source indices and add them up at the destination indices"
      x₁ = −(S (x₀·D))·D + 0·x₀ (+ 0·x₀),      x₂ = −2·(S (x₁·D))·D + 0·x₁ − x₀,
      out = max([x₀ | x₁ | x₂]·W + b, 0).
  The kernel runs the dense steps in four pipelined regions, five thousand rows at a time, and leaves the degree
  count and the two neighbourhood sums to the host, where they are the very operations the reference applies; so
  the two results agree as soon as each region's output array is, entry by entry, what the reference's dense
  operations make of the same inputs. The only laws used are that 0·x = 0 and (−1)·x = −x on the extended reals,
  u − x = u + (−x), and that a sum over 192 columns splits into three sums over 64: no entry needs to be finite.
  Two windows of the second region read the same array; its whole share is split between them at entry and joined
  at exit.
-/
import proofs.«164281_j49383533969583_2_alg».proof.Defs
import proofs.«164281_j49383533969583_2_alg».proof.Proof.Gen.Kernel
import proofs.«164281_j49383533969583_2_alg».proof.Proof.Gen.KernelIdeal
import proofs.«164281_j49383533969583_2_alg».proof.Proof.Gen.ReferenceIdeal
import proofs.«164281_j49383533969583_2_alg».proof.Proof.Gen.Pre_finite_inputs
import proofs.«164281_j49383533969583_2_alg».proof.Proof.Gen.ReferenceIdeal.Run
import proofs.«164281_j49383533969583_2_alg».proof.Proof.KKeep
import proofs.«164281_j49383533969583_2_alg».proof.Proof.Keep
import proofs.«164281_j49383533969583_2_alg».proof.Proof.Fold
import proofs.«164281_j49383533969583_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.arg0_10 m ρ c),
      (h c _ (Cert.Kernel.Fr.mem_uc Cert.Kernel.main_arg1 (by decide))).trans (Cert.Kernel.Fr.arg1_10 m ρ c),
      (h c _ (Cert.Kernel.Fr.mem_uc Cert.Kernel.main_arg2 (by decide))).trans (Cert.Kernel.Fr.arg2_10 m ρ c),
      (h c _ (Cert.Kernel.Fr.mem_uc Cert.Kernel.main_arg3 (by decide))).trans (Cert.Kernel.Fr.arg3_10 m ρ c),
      (h c _ (Cert.Kernel.Fr.mem_uc Cert.Kernel.main_arg4 (by decide))).trans (Cert.Kernel.Fr.arg4_10 m ρ c)⟩)
    (Cert.Kernel.Fr.run (F := Bits) m ρ)

/-- The idealized kernel runs and leaves its arguments as launched. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.arg0_10 m ρ c),
      (h c _ (Cert.KernelIdeal.Fr.mem_uc Cert.KernelIdeal.main_arg1 (by decide))).trans (Cert.KernelIdeal.Fr.arg1_10 m ρ c),
      (h c _ (Cert.KernelIdeal.Fr.mem_uc Cert.KernelIdeal.main_arg2 (by decide))).trans (Cert.KernelIdeal.Fr.arg2_10 m ρ c),
      (h c _ (Cert.KernelIdeal.Fr.mem_uc Cert.KernelIdeal.main_arg3 (by decide))).trans (Cert.KernelIdeal.Fr.arg3_10 m ρ c),
      (h c _ (Cert.KernelIdeal.Fr.mem_uc Cert.KernelIdeal.main_arg4 (by decide))).trans (Cert.KernelIdeal.Fr.arg4_10 m ρ c)⟩)
    (Cert.KernelIdeal.Fr.run (F := Ideal) m ρ)

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the idealized kernel's result buffer ends at the composed function of its arguments, which
    is the reference's result term of the same arguments. -/
theorem algebraic : Cert.algebraic_KernelIdeal_ReferenceIdeal := by
  intro m ρ m' ρ' _ hagree
  refine ⟨fun c => Cert.ReferenceIdeal.Value.res_main_v52 (F := Ideal) m' c, ?_, ?_⟩
  · refine (θ_run Cert.KernelIdeal.defs _ _).mono (fun r h c => ⟨?_,
      (h c _ (Cert.KernelIdeal.Fr.mem_uc Cert.KernelIdeal.main_arg0 (by decide))).trans (Cert.KernelIdeal.Fr.arg0_10 m ρ c),
      (h c _ (Cert.KernelIdeal.Fr.mem_uc Cert.KernelIdeal.main_arg1 (by decide))).trans (Cert.KernelIdeal.Fr.arg1_10 m ρ c),
      (h c _ (Cert.KernelIdeal.Fr.mem_uc Cert.KernelIdeal.main_arg2 (by decide))).trans (Cert.KernelIdeal.Fr.arg2_10 m ρ c),
      (h c _ (Cert.KernelIdeal.Fr.mem_uc Cert.KernelIdeal.main_arg3 (by decide))).trans (Cert.KernelIdeal.Fr.arg3_10 m ρ c),
      (h c _ (Cert.KernelIdeal.Fr.mem_uc Cert.KernelIdeal.main_arg4 (by decide))).trans (Cert.KernelIdeal.Fr.arg4_10 m ρ c)⟩)
      (Cert.KernelIdeal.Fr.run (F := Ideal) m ρ)
    refine (h c _ (Cert.KernelIdeal.Fr.mem_uc Cert.KernelIdeal.main_v32 (by decide))).trans ((Cert.KernelIdeal.Val.out10 m ρ c).trans ?_)
    rw [← (hagree c).1, ← (hagree c).2.1, ← (hagree c).2.2.1, ← (hagree c).2.2.2.1, ← (hagree c).2.2.2.2]
    exact Cert.KernelIdeal.Spec.bridge m' c
  · exact Cert.ReferenceIdeal.Value.run (F := Ideal) m' ρ'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
